-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x60x52x52 : Shape := ⟨4, ![128, 60, 52, 52]⟩
abbrev S_ : Shape := ⟨0, ![]⟩

class Facts : Prop where
  bcast_S_S128x60x52x52 : S_.BroadcastsInDim S128x60x52x52 (![] : Fin 0 → Fin S128x60x52x52.rank)
  reducesTo_S128x60x52x52_S_d0_1_2_3 : S128x60x52x52.ReducesTo [0, 1, 2, 3] S_
  h_S_ : 0 < S_.numel

variable [Facts]

def fn {F : FTy → Type} [FloatOps F] (main_arg0 : FVec F S128x60x52x52 .f32) : IVec S_ 1 :=
  let main_v0 : FVec F S128x60x52x52 .f32 := Host.absf main_arg0
  let main_cst : FVec F S_ .f32 := constant S_ .f32 0x7F800000#32
  let main_v1 : FVec F S128x60x52x52 .f32 := broadcastInDim S128x60x52x52 ![] bcast_S_S128x60x52x52 main_cst
  let main_v2 : IVec S128x60x52x52 1 := cmpf .olt main_v0 main_v1
  let main_c : IVec S_ 1 := constantI S_ 1 1#1
  let main_v3 : IVec S_ 1 := (fun x v => Host.reduce IntOp.andi x v reducesTo_S128x60x52x52_S_d0_1_2_3 h_S_) main_v2 main_c
  main_v3
-- ==== Kernel.lean ====
abbrev S128x60x52x52 : Shape := ⟨4, ![128, 60, 52, 52]⟩
abbrev S52x52x60x128 : Shape := ⟨4, ![52, 52, 60, 128]⟩
abbrev S20x3x2704x128 : Shape := ⟨4, ![20, 3, 2704, 128]⟩
abbrev S4x52x60x128 : Shape := ⟨4, ![4, 52, 60, 128]⟩
abbrev S20x3x208x128 : Shape := ⟨4, ![20, 3, 208, 128]⟩
abbrev S208x60x128 : Shape := ⟨3, ![208, 60, 128]⟩
abbrev S60x208x128 : Shape := ⟨3, ![60, 208, 128]⟩
abbrev S20x208x128 : Shape := ⟨3, ![20, 208, 128]⟩
abbrev S2x208x128 : Shape := ⟨3, ![2, 208, 128]⟩
abbrev S1x208x128 : Shape := ⟨3, ![1, 208, 128]⟩
abbrev S15x208x128 : Shape := ⟨3, ![15, 208, 128]⟩
abbrev S208x128 : Shape := ⟨2, ![208, 128]⟩
abbrev S20x1x208x128 : Shape := ⟨4, ![20, 1, 208, 128]⟩
abbrev S20x8112x128 : Shape := ⟨3, ![20, 8112, 128]⟩
abbrev S128x8112x20 : Shape := ⟨3, ![128, 8112, 20]⟩

abbrev nBuf : Space → Nat
  | .hbm => 5
  | .vmem => 4
  | .smem => 0
  | _ => 0

abbrev bufTy : (tb : Table) → Fin (tcTables nBuf tb) → BufTy
  | .hbm, ⟨0, _⟩ => ⟨S128x60x52x52, .f32⟩
  | .hbm, ⟨1, _⟩ => ⟨S52x52x60x128, .f32⟩
  | .hbm, ⟨2, _⟩ => ⟨S20x3x2704x128, .f32⟩
  | .hbm, ⟨3, _⟩ => ⟨S20x8112x128, .f32⟩
  | .hbm, ⟨4, _⟩ => ⟨S128x8112x20, .f32⟩
  | .local _ .vmem, ⟨0, _⟩ => ⟨S4x52x60x128, .f32⟩
  | .local _ .vmem, ⟨1, _⟩ => ⟨S4x52x60x128, .f32⟩
  | .local _ .vmem, ⟨2, _⟩ => ⟨S20x3x208x128, .f32⟩
  | .local _ .vmem, ⟨3, _⟩ => ⟨S20x3x208x128, .f32⟩
  | _, _ => ⟨S128x60x52x52, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![13], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S4x52x60x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x3x208x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S128x60x52x52_S52x52x60x128_2_3_1_0 : S128x60x52x52.Transposes [2, 3, 1, 0] S52x52x60x128
  inb_S4x52x60x128_S4x52x60x128_0_0_0_0 : ∀ a, (![0, 0, 0, 0] : Fin 4 → Nat) a + S4x52x60x128.size a ≤ S4x52x60x128.size a
  h_S4x52x60x128 : 0 < S4x52x60x128.numel
  shapeCasts_S4x52x60x128_S4x52x60x128 : S4x52x60x128.ShapeCasts S4x52x60x128
  shapeCasts_S4x52x60x128_S208x60x128 : S4x52x60x128.ShapeCasts S208x60x128
  transposes_S208x60x128_p1_0_2_S60x208x128 : S208x60x128.Transposes [1, 0, 2] S60x208x128
  slices_S60x208x128_o0_0_0_S20x208x128 : S60x208x128.Slices ![0, 0, 0] S20x208x128
  slices_S20x208x128_o0_0_0_S2x208x128 : S20x208x128.Slices ![0, 0, 0] S2x208x128
  slices_S20x208x128_o2_0_0_S2x208x128 : S20x208x128.Slices ![2, 0, 0] S2x208x128
  slices_S20x208x128_o4_0_0_S1x208x128 : S20x208x128.Slices ![4, 0, 0] S1x208x128
  slices_S20x208x128_o5_0_0_S15x208x128 : S20x208x128.Slices ![5, 0, 0] S15x208x128
  reduces_S15x208x128_S208x128 : S15x208x128.Reduces [0] S208x128
  shapeCasts_S208x128_S1x208x128 : S208x128.ShapeCasts S1x208x128
  broadcasts_S1x208x128_S15x208x128 : S1x208x128.Broadcasts S15x208x128
  concatenates_S2x208x128_S2x208x128_S1x208x128_S15x208x128_S20x208x128_d0 : Shape.Concatenates [S2x208x128, S2x208x128, S1x208x128, S15x208x128] S20x208x128 0
  inb_S20x3x208x128_S20x1x208x128_0_0_0_0 : ∀ a, (![0, 0, 0, 0] : Fin 4 → Nat) a + S20x1x208x128.size a ≤ S20x3x208x128.size a
  h_S20x1x208x128 : 0 < S20x1x208x128.numel
  shapeCasts_S20x1x208x128_S20x208x128 : S20x1x208x128.ShapeCasts S20x208x128
  shapeCasts_S20x208x128_S20x1x208x128 : S20x208x128.ShapeCasts S20x1x208x128
  slices_S60x208x128_o20_0_0_S20x208x128 : S60x208x128.Slices ![20, 0, 0] S20x208x128
  inb_S20x3x208x128_S20x1x208x128_0_1_0_0 : ∀ a, (![0, 1, 0, 0] : Fin 4 → Nat) a + S20x1x208x128.size a ≤ S20x3x208x128.size a
  slices_S60x208x128_o40_0_0_S20x208x128 : S60x208x128.Slices ![40, 0, 0] S20x208x128
  inb_S20x3x208x128_S20x1x208x128_0_2_0_0 : ∀ a, (![0, 2, 0, 0] : Fin 4 → Nat) a + S20x1x208x128.size a ≤ S20x3x208x128.size a
  shapeCasts_S20x3x2704x128_S20x8112x128 : S20x3x2704x128.ShapeCasts S20x8112x128
  transposes_S20x8112x128_S128x8112x20_2_1_0 : S20x8112x128.Transposes [2, 1, 0] S128x8112x20
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x52x60x128.size a ≤ S52x52x60x128.size a
  hwx0_0 : ∀ i : grid0.Coords, EltTy.bits .f32 = 32 ∨ (Rect.block (s := S52x52x60x128) S4x52x60x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20x3x208x128.size a ≤ S20x3x2704x128.size a
  hwx0_1 : ∀ i : grid0.Coords, EltTy.bits .f32 = 32 ∨ (Rect.block (s := S20x3x2704x128) S20x3x208x128.size (cc0_transform_1 i) (hinb0_1 i)).WholeWords (EltTy.packing .f32)

variable [Facts₀]

abbrev win0_0 : Pipeline.Window sig grid0 :=
  Pipeline.Window.ofSpec (Memref.whole main_v0) S4x52x60x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S20x3x208x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x60x52x52 : Shape := ⟨4, ![128, 60, 52, 52]⟩
abbrev S128x3x20x52x52 : Shape := ⟨5, ![128, 3, 20, 52, 52]⟩
abbrev S128x3x52x52x20 : Shape := ⟨5, ![128, 3, 52, 52, 20]⟩
abbrev S128x3x52x52x1 : Shape := ⟨5, ![128, 3, 52, 52, 1]⟩
abbrev S128x3x52x52 : Shape := ⟨4, ![128, 3, 52, 52]⟩
abbrev S_ : Shape := ⟨0, ![]⟩
abbrev S128x3x52x52x15 : Shape := ⟨5, ![128, 3, 52, 52, 15]⟩
abbrev S128x3x52x52x4 : Shape := ⟨5, ![128, 3, 52, 52, 4]⟩
abbrev S128x8112x4 : Shape := ⟨3, ![128, 8112, 4]⟩
abbrev S128x8112x1 : Shape := ⟨3, ![128, 8112, 1]⟩
abbrev S128x8112x15 : Shape := ⟨3, ![128, 8112, 15]⟩
abbrev S128x8112x20 : Shape := ⟨3, ![128, 8112, 20]⟩

abbrev nBuf : Space → Nat
  | .hbm => 64
  | .vmem => 0
  | .smem => 0
  | _ => 0

abbrev bufTy : (tb : Table) → Fin (tcTables nBuf tb) → BufTy
  | .hbm, ⟨0, _⟩ => ⟨S128x60x52x52, .f32⟩
  | .hbm, ⟨1, _⟩ => ⟨S128x3x20x52x52, .f32⟩
  | .hbm, ⟨2, _⟩ => ⟨S128x3x52x52x20, .f32⟩
  | .hbm, ⟨3, _⟩ => ⟨S128x3x52x52x1, .f32⟩
  | .hbm, ⟨4, _⟩ => ⟨S128x3x52x52, .f32⟩
  | .hbm, ⟨5, _⟩ => ⟨S128x3x52x52, .f32⟩
  | .hbm, ⟨6, _⟩ => ⟨S128x3x52x52, .f32⟩
  | .hbm, ⟨7, _⟩ => ⟨S_, .f32⟩
  | .hbm, ⟨8, _⟩ => ⟨S128x3x52x52, .f32⟩
  | .hbm, ⟨9, _⟩ => ⟨S128x3x52x52, .f32⟩
  | .hbm, ⟨10, _⟩ => ⟨S_, .f32⟩
  | .hbm, ⟨11, _⟩ => ⟨S128x3x52x52, .f32⟩
  | .hbm, ⟨12, _⟩ => ⟨S128x3x52x52, .f32⟩
  | .hbm, ⟨13, _⟩ => ⟨S128x3x52x52x1, .f32⟩
  | .hbm, ⟨14, _⟩ => ⟨S128x3x52x52, .f32⟩
  | .hbm, ⟨15, _⟩ => ⟨S128x3x52x52, .f32⟩
  | .hbm, ⟨16, _⟩ => ⟨S128x3x52x52, .f32⟩
  | .hbm, ⟨17, _⟩ => ⟨S_, .f32⟩
  | .hbm, ⟨18, _⟩ => ⟨S128x3x52x52, .f32⟩
  | .hbm, ⟨19, _⟩ => ⟨S128x3x52x52, .f32⟩
  | .hbm, ⟨20, _⟩ => ⟨S_, .f32⟩
  | .hbm, ⟨21, _⟩ => ⟨S128x3x52x52, .f32⟩
  | .hbm, ⟨22, _⟩ => ⟨S128x3x52x52, .f32⟩
  | .hbm, ⟨23, _⟩ => ⟨S128x3x52x52x1, .f32⟩
  | .hbm, ⟨24, _⟩ => ⟨S128x3x52x52, .f32⟩
  | .hbm, ⟨25, _⟩ => ⟨S128x3x52x52x1, .f32⟩
  | .hbm, ⟨26, _⟩ => ⟨S128x3x52x52, .f32⟩
  | .hbm, ⟨27, _⟩ => ⟨S128x3x52x52x1, .f32⟩
  | .hbm, ⟨28, _⟩ => ⟨S128x3x52x52, .f32⟩
  | .hbm, ⟨29, _⟩ => ⟨S128x3x52x52, .f32⟩
  | .hbm, ⟨30, _⟩ => ⟨S128x3x52x52, .f32⟩
  | .hbm, ⟨31, _⟩ => ⟨S_, .f32⟩
  | .hbm, ⟨32, _⟩ => ⟨S128x3x52x52, .f32⟩
  | .hbm, ⟨33, _⟩ => ⟨S128x3x52x52, .f32⟩
  | .hbm, ⟨34, _⟩ => ⟨S_, .f32⟩
  | .hbm, ⟨35, _⟩ => ⟨S128x3x52x52, .f32⟩
  | .hbm, ⟨36, _⟩ => ⟨S128x3x52x52, .f32⟩
  | .hbm, ⟨37, _⟩ => ⟨S128x3x52x52x15, .f32⟩
  | .hbm, ⟨38, _⟩ => ⟨S_, .f32⟩
  | .hbm, ⟨39, _⟩ => ⟨S128x3x52x52, .f32⟩
  | .hbm, ⟨40, _⟩ => ⟨S_, .f32⟩
  | .hbm, ⟨41, _⟩ => ⟨S128x3x52x52, .f32⟩
  | .hbm, ⟨42, _⟩ => ⟨S128x3x52x52, .f32⟩
  | .hbm, ⟨43, _⟩ => ⟨S128x3x52x52x1, .f32⟩
  | .hbm, ⟨44, _⟩ => ⟨S128x3x52x52x15, .f32⟩
  | .hbm, ⟨45, _⟩ => ⟨S128x3x52x52x15, .f32⟩
  | .hbm, ⟨46, _⟩ => ⟨S128x3x52x52x15, .f32⟩
  | .hbm, ⟨47, _⟩ => ⟨S_, .f32⟩
  | .hbm, ⟨48, _⟩ => ⟨S128x3x52x52, .f32⟩
  | .hbm, ⟨49, _⟩ => ⟨S128x3x52x52x1, .f32⟩
  | .hbm, ⟨50, _⟩ => ⟨S128x3x52x52x15, .f32⟩
  | .hbm, ⟨51, _⟩ => ⟨S128x3x52x52x15, .f32⟩
  | .hbm, ⟨52, _⟩ => ⟨S128x3x52x52x1, .f32⟩
  | .hbm, ⟨53, _⟩ => ⟨S128x3x52x52x1, .f32⟩
  | .hbm, ⟨54, _⟩ => ⟨S128x3x52x52x1, .f32⟩
  | .hbm, ⟨55, _⟩ => ⟨S128x3x52x52x1, .f32⟩
  | .hbm, ⟨56, _⟩ => ⟨S128x3x52x52x4, .f32⟩
  | .hbm, ⟨57, _⟩ => ⟨S128x8112x4, .f32⟩
  | .hbm, ⟨58, _⟩ => ⟨S_, .f32⟩
  | .hbm, ⟨59, _⟩ => ⟨S128x8112x4, .f32⟩
  | .hbm, ⟨60, _⟩ => ⟨S128x8112x4, .f32⟩
  | .hbm, ⟨61, _⟩ => ⟨S128x8112x1, .f32⟩
  | .hbm, ⟨62, _⟩ => ⟨S128x8112x15, .f32⟩
  | .hbm, ⟨63, _⟩ => ⟨S128x8112x20, .f32⟩
  | _, _ => ⟨S128x60x52x52, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_3 : Ref sig .tc := ⟨.hbm, 31, rfl⟩
abbrev main_v26 : Ref sig .tc := ⟨.hbm, 32, rfl⟩
abbrev main_v27 : Ref sig .tc := ⟨.hbm, 33, rfl⟩
abbrev main_cst_4 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_5 : Ref sig .tc := ⟨.hbm, 38, rfl⟩
abbrev main_v31 : Ref sig .tc := ⟨.hbm, 39, rfl⟩
abbrev main_cst_6 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_7 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_8 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]

class Facts₀ : Prop where
  shapeCasts_S128x60x52x52_S128x3x20x52x52 : S128x60x52x52.ShapeCasts S128x3x20x52x52
  transposes_S128x3x20x52x52_S128x3x52x52x20_0_1_3_4_2 : S128x3x20x52x52.Transposes [0, 1, 3, 4, 2] S128x3x52x52x20
  slices_S128x3x52x52x20_S128x3x52x52x1_0_0_0_0_0 : S128x3x52x52x20.Slices ![0, 0, 0, 0, 0] S128x3x52x52x1
  shapeCasts_S128x3x52x52x1_S128x3x52x52 : S128x3x52x52x1.ShapeCasts S128x3x52x52
  bcast_S_S128x3x52x52 : S_.BroadcastsInDim S128x3x52x52 (![] : Fin 0 → Fin S128x3x52x52.rank)
  slices_S128x3x52x52x20_S128x3x52x52x1_0_0_0_0_1 : S128x3x52x52x20.Slices ![0, 0, 0, 0, 1] S128x3x52x52x1
  slices_S128x3x52x52x20_S128x3x52x52x1_0_0_0_0_2 : S128x3x52x52x20.Slices ![0, 0, 0, 0, 2] S128x3x52x52x1
  slices_S128x3x52x52x20_S128x3x52x52x1_0_0_0_0_3 : S128x3x52x52x20.Slices ![0, 0, 0, 0, 3] S128x3x52x52x1
  slices_S128x3x52x52x20_S128x3x52x52x1_0_0_0_0_4 : S128x3x52x52x20.Slices ![0, 0, 0, 0, 4] S128x3x52x52x1
  slices_S128x3x52x52x20_S128x3x52x52x15_0_0_0_0_5 : S128x3x52x52x20.Slices ![0, 0, 0, 0, 5] S128x3x52x52x15
  reducesTo_S128x3x52x52x15_S128x3x52x52_d4 : S128x3x52x52x15.ReducesTo [4] S128x3x52x52
  h_S_ : 0 < S_.numel
  bcast_S128x3x52x52_S128x3x52x52x1_0_1_2_3 : S128x3x52x52.BroadcastsInDim S128x3x52x52x1 (![0, 1, 2, 3] : Fin 4 → Fin S128x3x52x52x1.rank)
  bcast_S128x3x52x52x1_S128x3x52x52x15_0_1_2_3_4 : S128x3x52x52x1.BroadcastsInDim S128x3x52x52x15 (![0, 1, 2, 3, 4] : Fin 5 → Fin S128x3x52x52x15.rank)
  concatenates_S128x3x52x52x1_S128x3x52x52x1_S128x3x52x52x1_S128x3x52x52x1_S128x3x52x52x4_d4 : Shape.Concatenates [S128x3x52x52x1, S128x3x52x52x1, S128x3x52x52x1, S128x3x52x52x1] S128x3x52x52x4 4
  shapeCasts_S128x3x52x52x4_S128x8112x4 : S128x3x52x52x4.ShapeCasts S128x8112x4
  bcast_S_S128x8112x4 : S_.BroadcastsInDim S128x8112x4 (![] : Fin 0 → Fin S128x8112x4.rank)
  shapeCasts_S128x3x52x52_S128x8112x1 : S128x3x52x52.ShapeCasts S128x8112x1
  shapeCasts_S128x3x52x52x15_S128x8112x15 : S128x3x52x52x15.ShapeCasts S128x8112x15
  concatenates_S128x8112x4_S128x8112x1_S128x8112x15_S128x8112x20_d2 : Shape.Concatenates [S128x8112x4, S128x8112x1, S128x8112x15] S128x8112x20 2

variable [Facts₀]

class Facts : Prop extends Facts₀ where

variable [Facts]
-- ==== Proof.Spec.lean ====
/-
  The detection head's decode, as one function of the argument array.

  The argument x : [128, 60, 52, 52] holds, for image b, anchor a (of 3), channel k (of 20) and grid cell (h, w),
  the raw value x[b, 20·a + k, h, w].  The result r : [128, 8112, 20] has one row per (anchor, cell), row
  n = 2704·a + 52·h + w, and in that row the 20 decoded channels of the cell:

    k = 0, 1   the box centre:      logistic z_k · 8
    k = 2, 3   the box extent:      z_k · 8
    k = 4      the confidence:      logistic z_k
    k ≥ 5      the class scores:    exp (z_k − M) / Σ_j exp (z_{5+j} − M),   M the largest of the 15 class values,

  where z is the cell's 20 raw values.  Everything is over the extended reals: `Ideal.logistic t = 1 / (1 + e^(−t))`,
  `Ideal.exp`, `Ideal.div` are the ideal instance's functions, the scale and the maximum's starting value are the
  words the programs print (8 and −∞), never evaluated.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Decode

/-- The scale of the box channels: the word both programs print for 8. -/
abbrev scale : EReal := Ideal.ofBits .f32 0x41000000#32
/-- The value a maximum starts from: the word both programs print for −∞. -/
abbrev floor : EReal := Ideal.ofBits .f32 0xFF800000#32

/-- The 15 class values of a cell: channels 5 … 19. -/
def logits (z : Fin 20 → EReal) (j : Fin 15) : EReal := z ⟨5 + j.val, by omega⟩

/-- The largest class value (a maximum started from `floor`). -/
def top (z : Fin 20 → EReal) : EReal := (Finset.univ : Finset (Fin 15)).fold max floor (logits z)

/-- The softmax's denominator: the shifted class values' exponentials, summed. -/
def mass (z : Fin 20 → EReal) : EReal := ∑ j : Fin 15, Ideal.exp (logits z j - top z)

/-- One cell decoded: channel `k` of the 20 outputs, from the cell's 20 raw values `z`. -/
def cell (z : Fin 20 → EReal) (k : Fin 20) : EReal :=
  if k.val < 2 then Ideal.logistic (z k) * scale
  else if k.val < 4 then z k * scale
  else if k.val < 5 then Ideal.logistic (z k)
  else Ideal.div (Ideal.exp (z k - top z)) (mass z)

/-- A class channel, named by its position among the 15. -/
theorem cell_class (z : Fin 20 → EReal) (j : Fin 15) :
    cell z ⟨5 + j.val, by omega⟩ = Ideal.div (Ideal.exp (logits z j - top z)) (mass z) := by
  unfold cell
  rw [if_neg (by show ¬ (5 + j.val < 2); omega), if_neg (by show ¬ (5 + j.val < 4); omega),
    if_neg (by show ¬ (5 + j.val < 5); omega)]
  rfl

/-- The cell's raw values: image `b`, anchor `a`, grid cell `(h, w)`, channel `k` is `x[b, 20·a + k, h, w]`. -/
def raw (x : (⟨4, ![128, 60, 52, 52]⟩ : Shape).Idx → EReal) (b : Fin 128) (a : Fin 3) (h w : Fin 52) (k : Fin 20) : EReal :=
  x (ix4 b (⟨20 * a.val + k.val, by omega⟩ : Fin 60) h w)

/-- The result at image `b`, row `n`, channel `k`: row `n` is anchor `n / 2704`, cell `(n / 52 % 52, n % 52)`. -/
def resultAt (x : (⟨4, ![128, 60, 52, 52]⟩ : Shape).Idx → EReal) (b : Fin 128) (n : Fin 8112) (k : Fin 20) : EReal :=
  cell (raw x b ⟨n.val / 2704, by omega⟩ ⟨n.val / 52 % 52, by omega⟩ ⟨n.val % 52, by omega⟩) k

/-- The whole result array as a function of the argument array. -/
def result (x : (⟨4, ![128, 60, 52, 52]⟩ : Shape).Idx → EReal) : (⟨3, ![128, 8112, 20]⟩ : Shape).Idx → EReal :=
  fun i => resultAt x ⟨(i 0).val, (i 0).isLt⟩ ⟨(i 1).val, (i 1).isLt⟩ ⟨(i 2).val, (i 2).isLt⟩

end Cert.Decode

end
-- ==== Proof.Planes.lean ====
/-
  One anchor's block decoded.  The kernel body transposes its input block to channel-major planes
  [60, 208, 128] (channel, cell of the block, image) and treats each anchor's 20 planes alike: two planes
  logistic · 8, two planes · 8, one plane logistic, and the 15 class planes a softmax ACROSS PLANES (the maximum and
  the sum run over the plane axis, one value per (cell, image)).  `planes` is that common tree of operations; the
  three stored values are `planes` of the three slices of 20 planes.  Read at (channel k, cell s, image b) it is
  `Decode.cell` of the 20 values the planes hold at (s, b).
-/
import proofs.«163579_g11012296147525_week1_w3_721_14_alg».proof.Proof.Gen.KernelIdeal.Skeleton
import proofs.«163579_g11012296147525_week1_w3_721_14_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Body

open Cert.KernelIdeal Cert.KernelIdeal.Gen Cert.Decode

variable {F : FTy → Type} [FloatOps F]

/-- The class planes' softmax across planes, before the division: the planes shifted by their maximum, exponentiated. -/
def shifted (L : FVec F S15x208x128 .f32) : FVec F S15x208x128 .f32 :=
  exp (subf L (broadcastTo S15x208x128 (shapeCast S1x208x128
    (multiReduction .maximumf [0] S208x128 L 0xFF800000#32 Gen.reduces_S15x208x128_S208x128 (.inl rfl) rfl)
    Gen.shapeCasts_S208x128_S1x208x128) Gen.broadcasts_S1x208x128_S15x208x128))

/-- … and the division by the sum across planes. -/
def normalized (E : FVec F S15x208x128 .f32) : FVec F S15x208x128 .f32 :=
  divf E (broadcastTo S15x208x128 (shapeCast S1x208x128
    (multiReduction .add [0] S208x128 E 0x00000000#32 Gen.reduces_S15x208x128_S208x128 (.inl rfl) rfl)
    Gen.shapeCasts_S208x128_S1x208x128) Gen.broadcasts_S1x208x128_S15x208x128)

/-- The four groups of planes joined, with the unit anchor axis the store wants. -/
def joined (xy wh : FVec F S2x208x128 .f32) (cf : FVec F S1x208x128 .f32) (cl : FVec F S15x208x128 .f32) :
    FVec F S20x1x208x128 .f32 :=
  shapeCast S20x1x208x128 (concatenate S20x208x128 0 [⟨S2x208x128, xy⟩, ⟨S2x208x128, wh⟩, ⟨S1x208x128, cf⟩, ⟨S15x208x128, cl⟩]
    Gen.concatenates_S2x208x128_S2x208x128_S1x208x128_S15x208x128_S20x208x128_d0) Gen.shapeCasts_S20x208x128_S20x1x208x128

/-- One anchor's 20 planes decoded. -/
def planes (T : FVec F S20x208x128 .f32) : FVec F S20x1x208x128 .f32 :=
  joined
    (mulf (logistic (extractStridedSlice S2x208x128 ![0, 0, 0] T Gen.slices_S20x208x128_o0_0_0_S2x208x128))
      (broadcast S2x208x128 (Scalar.ofBits .f32 0x41000000#32)))
    (mulf (extractStridedSlice S2x208x128 ![2, 0, 0] T Gen.slices_S20x208x128_o2_0_0_S2x208x128)
      (broadcast S2x208x128 (Scalar.ofBits .f32 0x41000000#32)))
    (logistic (extractStridedSlice S1x208x128 ![4, 0, 0] T Gen.slices_S20x208x128_o4_0_0_S1x208x128))
    (normalized (shifted (extractStridedSlice S15x208x128 ![5, 0, 0] T Gen.slices_S20x208x128_o5_0_0_S15x208x128)))

/-- The first store's value is `planes` of planes 0 … 19. -/
theorem pay4_eq (v0 : Vec F S4x52x60x128 .f32) :
    k0_pay4 v0 = planes (extractStridedSlice S20x208x128 ![0, 0, 0] (k0_pay3 v0) Gen.slices_S60x208x128_o0_0_0_S20x208x128) := rfl

/-- The second store's value is `planes` of planes 20 … 39. -/
theorem pay1_eq (v0 : Vec F S4x52x60x128 .f32) :
    k0_pay1 (k0_pay6 v0) (k0_pay7 v0) (k0_pay8 v0) (k0_pay9 v0)
      = planes (extractStridedSlice S20x208x128 ![20, 0, 0] (k0_pay3 v0) Gen.slices_S60x208x128_o20_0_0_S20x208x128) := rfl

/-- The third store's value is `planes` of planes 40 … 59. -/
theorem pay2_eq (v0 : Vec F S4x52x60x128 .f32) :
    k0_pay2 (k0_pay3 v0) = planes (extractStridedSlice S20x208x128 ![40, 0, 0] (k0_pay3 v0) Gen.slices_S60x208x128_o40_0_0_S20x208x128) := rfl

end Cert.KernelIdeal.Body

end
-- ==== Proof.PlanesAt.lean ====
/-
  `Body.planes` read at an index, over the extended reals: at (channel k, cell s, image b) it is `Decode.cell` of the
  20 values the planes hold at (s, b).  The maximum and the sum across the 15 class planes are a fold and a sum
  over the plane coordinate (the reduced index (s, b) with the plane inserted in front is (j, s, b)).
-/
import proofs.«163579_g11012296147525_week1_w3_721_14_alg».proof.Proof.Planes

noncomputable section

open scoped BigOperators
open Idealize.ShloMosaic Idealize.ShloMosaic.ValueIdx

namespace Cert.KernelIdeal.Body

open Cert.KernelIdeal Cert.KernelIdeal.Gen Cert.Decode

/-- The reduced index (s, b) with plane `j` put back in front. -/
theorem lift_plane (s : Fin 208) (b : Fin 128) (j : Fin 15) :
    Gen.reduces_S15x208x128_S208x128.lift (ix2 s b) j = ix3 j s b := by
  funext c
  match c with
  | ⟨0, _⟩ => exact Fin.ext rfl
  | ⟨1, _⟩ => exact Fin.ext rfl
  | ⟨2, _⟩ => exact Fin.ext rfl

/-- A per-(cell, image) value broadcast back over the 15 planes. -/
theorem spread_apply (r : FVec Ideal S208x128 .f32) (j : Fin 15) (s : Fin 208) (b : Fin 128) :
    broadcastTo S15x208x128 (shapeCast S1x208x128 r Gen.shapeCasts_S208x128_S1x208x128) Gen.broadcasts_S1x208x128_S15x208x128 (ix3 j s b)
      = r (ix2 s b) := by
  rw [broadcastTo_apply _ Gen.broadcasts_S1x208x128_S15x208x128 (ix3 j s b) (ix3 (0 : Fin 1) s b) (fun a => by
    match a with
    | ⟨0, _⟩ => rfl
    | ⟨1, _⟩ => rfl
    | ⟨2, _⟩ => rfl)]
  exact shapeCast_ab_1ab_apply r Gen.shapeCasts_S208x128_S1x208x128 (0 : Fin 1) s b

/-- The shifted exponentials at (plane j, cell s, image b). -/
theorem shifted_apply (L : FVec Ideal S15x208x128 .f32) (j : Fin 15) (s : Fin 208) (b : Fin 128) :
    shifted L (ix3 j s b)
      = Ideal.exp (L (ix3 j s b) - (Finset.univ : Finset (Fin 15)).fold max Decode.floor (fun j' => L (ix3 j' s b))) := by
  unfold shifted
  show Ideal.exp (L (ix3 j s b) - broadcastTo S15x208x128 (shapeCast S1x208x128 _ Gen.shapeCasts_S208x128_S1x208x128) Gen.broadcasts_S1x208x128_S15x208x128 (ix3 j s b)) = _
  rw [spread_apply]
  refine congrArg (fun z => Ideal.exp (L (ix3 j s b) - z)) ?_
  refine (Ideal.multiReduction_maximumf_single L 0xFF800000#32 Gen.reduces_S15x208x128_S208x128 (.inl rfl) rfl (ix2 s b)).trans ?_
  have e : (L ∘ Gen.reduces_S15x208x128_S208x128.lift (ix2 s b)) = fun j' : Fin 15 => L (ix3 j' s b) :=
    funext fun j' => congrArg L (lift_plane s b j')
  rw [e]
  rfl

/-- The normalized planes at (plane j, cell s, image b). -/
theorem normalized_apply (E : FVec Ideal S15x208x128 .f32) (j : Fin 15) (s : Fin 208) (b : Fin 128) :
    normalized E (ix3 j s b) = Ideal.div (E (ix3 j s b)) (∑ j' : Fin 15, E (ix3 j' s b)) := by
  unfold normalized
  show Ideal.div (E (ix3 j s b)) (broadcastTo S15x208x128 (shapeCast S1x208x128 _ Gen.shapeCasts_S208x128_S1x208x128) Gen.broadcasts_S1x208x128_S15x208x128 (ix3 j s b)) = _
  rw [spread_apply]
  refine congrArg (Ideal.div (E (ix3 j s b))) ?_
  refine (Ideal.multiReduction_add_single E 0x00000000#32 Gen.reduces_S15x208x128_S208x128 (.inl rfl) rfl (ix2 s b)).trans ?_
  exact Finset.sum_congr rfl fun j' _ => congrArg E (lift_plane s b j')

/-- The cast that gives the joined planes their unit anchor axis. -/
theorem joined_apply (xy wh : FVec Ideal S2x208x128 .f32) (cf : FVec Ideal S1x208x128 .f32) (cl : FVec Ideal S15x208x128 .f32)
    (k : Fin 20) (s : Fin 208) (b : Fin 128) :
    joined xy wh cf cl (ix4 k (0 : Fin 1) s b)
      = concatenate S20x208x128 0 [⟨S2x208x128, xy⟩, ⟨S2x208x128, wh⟩, ⟨S1x208x128, cf⟩, ⟨S15x208x128, cl⟩]
          Gen.concatenates_S2x208x128_S2x208x128_S1x208x128_S15x208x128_S20x208x128_d0 (ix3 k s b) := by
  unfold joined
  exact shapeCast_apply _ Gen.shapeCasts_S20x208x128_S20x1x208x128 (ix4 k (0 : Fin 1) s b) (ix3 k s b) (by
    rw [Shape.rowMajor_val_three, Shape.rowMajor_val_four]
    show (k.val * 208 + s.val) * 128 + b.val = ((k.val * 1 + 0) * 208 + s.val) * 128 + b.val
    omega)

/-- A group of planes inside the joined 20: the group that starts at plane `pre` and has `n` planes, at its plane `q`. -/
theorem group_apply {n : Nat} (xy wh : FVec Ideal S2x208x128 .f32) (cf : FVec Ideal S1x208x128 .f32) (cl : FVec Ideal S15x208x128 .f32)
    (g : Nat) (hg : g < 4) (x₁ : (⟨3, ![n, 208, 128]⟩ : Shape).Idx → EReal)
    (hx : ([⟨S2x208x128, xy⟩, ⟨S2x208x128, wh⟩, ⟨S1x208x128, cf⟩, ⟨S15x208x128, cl⟩] : List ((s : Shape) × (s.Idx → EReal)))[g]'hg = ⟨⟨3, ![n, 208, 128]⟩, x₁⟩)
    (pre : Nat)
    (hpre : (((([⟨S2x208x128, xy⟩, ⟨S2x208x128, wh⟩, ⟨S1x208x128, cf⟩, ⟨S15x208x128, cl⟩] : List ((s : Shape) × (s.Idx → EReal))).take g).map (·.1)).map
      (fun s : Shape => if h : s.rank = S20x208x128.rank then s.size ((0 : Fin S20x208x128.rank).cast h.symm) else 0)).sum = pre)
    (k : Fin 20) (q : Fin n) (hq : pre + q.val = k.val) (s : Fin 208) (b : Fin 128) :
    concatenate S20x208x128 0 [⟨S2x208x128, xy⟩, ⟨S2x208x128, wh⟩, ⟨S1x208x128, cf⟩, ⟨S15x208x128, cl⟩]
        Gen.concatenates_S2x208x128_S2x208x128_S1x208x128_S15x208x128_S20x208x128_d0 (ix3 k s b) = x₁ (ix3 q s b) :=
  concatenate_apply_piece (0 : Fin S20x208x128.rank) [⟨S2x208x128, xy⟩, ⟨S2x208x128, wh⟩, ⟨S1x208x128, cf⟩, ⟨S15x208x128, cl⟩]
    Gen.concatenates_S2x208x128_S2x208x128_S1x208x128_S15x208x128_S20x208x128_d0
    (ix3 k s b) g hg ⟨3, ![n, 208, 128]⟩ x₁ hx rfl pre hpre (ix3 q s b)
    (fun c hc => by
      match c with
      | ⟨0, _⟩ => exact absurd rfl hc
      | ⟨1, _⟩ => rfl
      | ⟨2, _⟩ => rfl)
    hq

/-- `planes` at (channel k, cell s, image b) is the cell's decode of the 20 values the planes hold at (s, b). -/
theorem planes_apply (T : FVec Ideal S20x208x128 .f32) (k : Fin 20) (s : Fin 208) (b : Fin 128) :
    planes T (ix4 k (0 : Fin 1) s b) = cell (fun k' => T (ix3 k' s b)) k := by
  unfold planes
  rw [joined_apply]
  by_cases h2 : k.val < 2
  · -- the box centre
    rw [group_apply _ _ _ _ 0 (by decide) _ rfl 0 rfl k ⟨k.val, h2⟩ (by show 0 + k.val = k.val; omega) s b]
    unfold cell
    rw [if_pos h2]
    show Ideal.logistic (extractStridedSlice S2x208x128 ![0, 0, 0] T Gen.slices_S20x208x128_o0_0_0_S2x208x128 (ix3 ⟨k.val, h2⟩ s b)) * _ = _
    rw [extractStridedSlice_apply ![0, 0, 0] T Gen.slices_S20x208x128_o0_0_0_S2x208x128 (ix3 ⟨k.val, h2⟩ s b) (ix3 k s b) (fun a => by
      match a with
      | ⟨0, _⟩ => show k.val = 0 + k.val; omega
      | ⟨1, _⟩ => show s.val = 0 + s.val; omega
      | ⟨2, _⟩ => show b.val = 0 + b.val; omega)]
    rfl
  · by_cases h4 : k.val < 4
    · -- the box extent
      rw [group_apply _ _ _ _ 1 (by decide) _ rfl 2 rfl k ⟨k.val - 2, by omega⟩ (by show 2 + (k.val - 2) = k.val; omega) s b]
      unfold cell
      rw [if_neg h2, if_pos h4]
      show extractStridedSlice S2x208x128 ![2, 0, 0] T Gen.slices_S20x208x128_o2_0_0_S2x208x128 (ix3 ⟨k.val - 2, _⟩ s b) * _ = _
      rw [extractStridedSlice_apply ![2, 0, 0] T Gen.slices_S20x208x128_o2_0_0_S2x208x128 (ix3 ⟨k.val - 2, by omega⟩ s b) (ix3 k s b) (fun a => by
        match a with
        | ⟨0, _⟩ => show k.val = 2 + (k.val - 2); omega
        | ⟨1, _⟩ => show s.val = 0 + s.val; omega
        | ⟨2, _⟩ => show b.val = 0 + b.val; omega)]
      rfl
    · by_cases h5 : k.val < 5
      · -- the confidence
        rw [group_apply _ _ _ _ 2 (by decide) _ rfl 4 rfl k ⟨0, by omega⟩ (by show 4 + 0 = k.val; omega) s b]
        unfold cell
        rw [if_neg h2, if_neg h4, if_pos h5]
        show Ideal.logistic (extractStridedSlice S1x208x128 ![4, 0, 0] T Gen.slices_S20x208x128_o4_0_0_S1x208x128 (ix3 ⟨0, _⟩ s b)) = _
        rw [extractStridedSlice_apply ![4, 0, 0] T Gen.slices_S20x208x128_o4_0_0_S1x208x128 (ix3 ⟨0, by omega⟩ s b) (ix3 k s b) (fun a => by
          match a with
          | ⟨0, _⟩ => show k.val = 4 + 0; omega
          | ⟨1, _⟩ => show s.val = 0 + s.val; omega
          | ⟨2, _⟩ => show b.val = 0 + b.val; omega)]
      · -- a class score
        have hk : k.val < 20 := k.isLt
        rw [group_apply _ _ _ _ 3 (by decide) _ rfl 5 rfl k ⟨k.val - 5, by omega⟩ (by show 5 + (k.val - 5) = k.val; omega) s b]
        have hcls : ∀ j' : Fin 15, extractStridedSlice S15x208x128 ![5, 0, 0] T Gen.slices_S20x208x128_o5_0_0_S15x208x128 (ix3 j' s b)
            = logits (fun k' => T (ix3 k' s b)) j' := fun j' =>
          extractStridedSlice_apply ![5, 0, 0] T Gen.slices_S20x208x128_o5_0_0_S15x208x128 (ix3 j' s b) (ix3 (⟨5 + j'.val, by omega⟩ : Fin 20) s b) (fun a => by
            match a with
            | ⟨0, _⟩ => rfl
            | ⟨1, _⟩ => show s.val = 0 + s.val; omega
            | ⟨2, _⟩ => show b.val = 0 + b.val; omega)
        have hk5 : k = ⟨5 + (⟨k.val - 5, by omega⟩ : Fin 15).val, by show 5 + (k.val - 5) < 20; omega⟩ := Fin.ext (by show k.val = 5 + (k.val - 5); omega)
        rw [normalized_apply]
        simp only [shifted_apply, hcls]
        conv_rhs => rw [hk5, cell_class]
        rfl

end Cert.KernelIdeal.Body

end
-- ==== Proof.Block.lean ====
/-
  One output block as a function of one input block.  The input block is [4, 52, 60, 128] = (row of the 52×52 grid within
  the block, column, channel, image); the output block is [20, 3, 208, 128] = (decoded channel, anchor, cell of the block,
  image), cell s = 52·row + column.  The body's three stores fill the three anchor slabs; slab a at (k, s, b) is the
  decode of the 20 input values at (s / 52, s % 52, 20·a + ·, b).
-/
import proofs.«163579_g11012296147525_week1_w3_721_14_alg».proof.Proof.PlanesAt
import proofs.«163579_g11012296147525_week1_w3_721_14_alg».proof.Proof.Gen.KernelIdeal.Frame

noncomputable section

open scoped BigOperators
open Idealize.ShloMosaic Idealize.ShloMosaic.ValueIdx

namespace Cert.KernelIdeal.Body

open Cert.KernelIdeal Cert.KernelIdeal.Gen Cert.Decode

/-- The block as channel-major planes: plane c at (cell s, image b) is the block at (s / 52, s % 52, c, b). -/
theorem planes_of_block (v0 : Vec Ideal S4x52x60x128 .f32) (c : Fin 60) (s : Fin 208) (b : Fin 128) :
    k0_pay3 (F := Ideal) v0 (ix3 c s b) = v0 (ix4 (⟨s.val / 52, by omega⟩ : Fin 4) (⟨s.val % 52, by omega⟩ : Fin 52) c b) := by
  unfold k0_pay3
  rw [shapeCast_self]
  refine (transpose_apply [1, 0, 2] _ Gen.transposes_S208x60x128_p1_0_2_S60x208x128 (ix3 c s b) (ix3 s c b) (fun a => by
    match a with
    | ⟨0, _⟩ => rfl
    | ⟨1, _⟩ => rfl
    | ⟨2, _⟩ => rfl)).trans ?_
  exact shapeCast_apply v0 Gen.shapeCasts_S4x52x60x128_S208x60x128 (ix3 s c b)
    (ix4 (⟨s.val / 52, by omega⟩ : Fin 4) (⟨s.val % 52, by omega⟩ : Fin 52) c b) (by
      rw [Shape.rowMajor_val_four, Shape.rowMajor_val_three]
      show ((s.val / 52 * 52 + s.val % 52) * 60 + c.val) * 128 + b.val = (s.val * 60 + c.val) * 128 + b.val
      have := Nat.div_add_mod s.val 52
      have e : s.val / 52 * 52 + s.val % 52 = s.val := by omega
      rw [e])

/-- Anchor `a`'s 20 planes (planes `off = 20·a` … `off + 19`) decoded, at (channel k, cell s, image b). -/
theorem anchor_apply (v0 : Vec Ideal S4x52x60x128 .f32) (off : Nat) (a : Fin 3) (ho : off = 20 * a.val)
    (h : S60x208x128.Slices ![off, 0, 0] S20x208x128) (k : Fin 20) (s : Fin 208) (b : Fin 128) :
    planes (F := Ideal) (extractStridedSlice S20x208x128 ![off, 0, 0] (k0_pay3 (F := Ideal) v0) h) (ix4 k (0 : Fin 1) s b)
      = cell (fun k' => v0 (ix4 (⟨s.val / 52, by omega⟩ : Fin 4) (⟨s.val % 52, by omega⟩ : Fin 52)
          (⟨20 * a.val + k'.val, by omega⟩ : Fin 60) b)) k := by
  rw [planes_apply]
  refine congrArg (fun z => cell z k) (funext fun k' => ?_)
  refine (extractStridedSlice_apply ![off, 0, 0] (k0_pay3 (F := Ideal) v0) h (ix3 k' s b) (ix3 (⟨20 * a.val + k'.val, by omega⟩ : Fin 60) s b) (fun c => by
    match c with
    | ⟨0, _⟩ => show 20 * a.val + k'.val = off + k'.val; omega
    | ⟨1, _⟩ => show s.val = 0 + s.val; omega
    | ⟨2, _⟩ => show b.val = 0 + b.val; omega)).trans ?_
  exact planes_of_block v0 _ s b

/-- One output block decoded from one input block, as ONE function of the output block's index (k, a, s, b). -/
def blockOut (x0 : S4x52x60x128.Idx → EReal) : S20x3x208x128.Idx → EReal := fun y =>
  cell (fun k' => x0 (ix4
      (⟨(y 2).val / 52, by have h : (y 2).val < 208 := (y 2).isLt; omega⟩ : Fin 4)
      (⟨(y 2).val % 52, by omega⟩ : Fin 52)
      (⟨20 * (y 1).val + k'.val, by have h : (y 1).val < 3 := (y 1).isLt; omega⟩ : Fin 60)
      (⟨(y 3).val, (y 3).isLt⟩ : Fin 128)))
    (⟨(y 0).val, (y 0).isLt⟩ : Fin 20)

theorem hz4 : (![0, 0, 0, 0] : Fin 4 → Nat) = fun _ => 0 := funext fun a => by fin_cases a <;> rfl

/-- A store into anchor slab `a` whose value is the anchor's decode agrees with `blockOut` on the slab. -/
theorem slab_agrees (x0 : S4x52x60x128.Idx → EReal) (a : Fin 3)
    (inb : ∀ c, (![0, a.val, 0, 0] : Fin 4 → Nat) c + S20x1x208x128.size c ≤ S20x3x208x128.size c)
    (P : S20x1x208x128.Idx → EReal)
    (hP : ∀ (k : Fin 20) (s : Fin 208) (b : Fin 128), P (ix4 k (0 : Fin 1) s b)
      = cell (fun k' => x0 (ix4 (⟨s.val / 52, by omega⟩ : Fin 4) (⟨s.val % 52, by omega⟩ : Fin 52)
          (⟨20 * a.val + k'.val, by omega⟩ : Fin 60) b)) k)
    (x : S20x1x208x128.Idx) :
    P x = blockOut x0 ((Rect.unit (s := S20x3x208x128) ![0, a.val, 0, 0] S20x1x208x128.size inb).emb x) := by
  obtain ⟨k, u, s, b, rfl⟩ : ∃ (k : Fin 20) (u : Fin 1) (s : Fin 208) (b : Fin 128), x = ix4 k u s b :=
    ⟨x 0, x 1, x 2, x 3, eq_ix4 x⟩
  obtain rfl : u = 0 := Fin.ext (by omega)
  rw [hP]
  have e : (Rect.unit (s := S20x3x208x128) ![0, a.val, 0, 0] S20x1x208x128.size inb).emb (ix4 k (0 : Fin 1) s b)
      = ix4 k a s b := funext fun c => Fin.ext (by
    match c with
    | ⟨0, _⟩ => show 0 + 1 * k.val = k.val; omega
    | ⟨1, _⟩ => show a.val + 1 * 0 = a.val; omega
    | ⟨2, _⟩ => show 0 + 1 * s.val = s.val; omega
    | ⟨3, _⟩ => show 0 + 1 * b.val = b.val; omega)
  rw [e]
  rfl

/-- What the body leaves in the output's staging buffer is `blockOut` of the input block. -/
theorem out_eq (x0 : Vec Ideal S4x52x60x128 .f32) : out0_1 x0 = blockOut x0 := by
  funext y
  unfold out0_1
  refine View.canon_apply_of_pieces (Val := Elt Ideal) (S := S20x3x208x128) (e := .f32) (blockOut x0) _ (fun p hp x => ?_) y (cover0_1 _ _ _ y)
  simp only [List.mem_cons, List.not_mem_nil, or_false] at hp
  rw [View.ld_unit_zero (S := S4x52x60x128) hz4] at hp
  rcases hp with rfl | rfl | rfl
  · exact slab_agrees x0 (2 : Fin 3) Gen.inb_S20x3x208x128_S20x1x208x128_0_2_0_0 _ (fun k s b => by rw [pay2_eq]; exact anchor_apply x0 40 (2 : Fin 3) rfl _ k s b) x
  · exact slab_agrees x0 (1 : Fin 3) Gen.inb_S20x3x208x128_S20x1x208x128_0_1_0_0 _ (fun k s b => by rw [pay1_eq]; exact anchor_apply x0 20 (1 : Fin 3) rfl _ k s b) x
  · exact slab_agrees x0 (0 : Fin 3) Gen.inb_S20x3x208x128_S20x1x208x128_0_0_0_0 _ (fun k s b => by rw [pay4_eq]; exact anchor_apply x0 0 (0 : Fin 3) rfl _ k s b) x

end Cert.KernelIdeal.Body

end
-- ==== Proof.Region.lean ====
/-
  The region's output array as one function of its input array.  The grid has 13 points; point t reads rows
  4t … 4t+3 of the [52, 52, 60, 128] input (row, column, channel, image) and writes cells 208t … 208t+207 of the
  [20, 3, 2704, 128] output (decoded channel, anchor, cell, image), cell g = 52·row + column.  Each output block is
  `Body.blockOut` of the input block, which is the restriction to the block of ONE function of the whole arrays:
  output (k, a, g, b) is the decode of the 20 input values at (g / 52, g % 52, 20·a + ·, b).  The 13 blocks tile the
  cell axis, so the array ends holding that function.
-/
import proofs.«163579_g11012296147525_week1_w3_721_14_alg».proof.Proof.Block
import Idealize.ShloMosaic.Lib.Pipeline.Value

noncomputable section

open scoped BigOperators
open Idealize.ShloMosaic Idealize.ShloMosaic.TcCoe Idealize.ShloMosaic.ValueIdx Idealize.SL.Sem
open Idealize.ShloMosaic.Pipeline (Dat)

namespace Cert.KernelIdeal.Region

open Cert.KernelIdeal Cert.KernelIdeal.Gen Cert.KernelIdeal.Body Cert.Decode

variable (m : (ℓ : Loc nD τ sig) → Buf (Elt Ideal) ℓ) (ρ : Dev nD → PrngReg)

/-- The region's whole output from its whole input: (k, a, g, b) ↦ the decode of the input's 20 values at
    (g / 52, g % 52, 20·a + ·, b). -/
def regionOut (xt : S52x52x60x128.Idx → EReal) : S20x3x2704x128.Idx → EReal := fun i =>
  cell (fun k' => xt (ix4
      (⟨(i 2).val / 52, by have h : (i 2).val < 2704 := (i 2).isLt; omega⟩ : Fin 52)
      (⟨(i 2).val % 52, by omega⟩ : Fin 52)
      (⟨20 * (i 1).val + k'.val, by have h : (i 1).val < 3 := (i 1).isLt; omega⟩ : Fin 60)
      (⟨(i 3).val, (i 3).isLt⟩ : Fin 128)))
    (⟨(i 0).val, (i 0).isLt⟩ : Fin 20)

/-- The printed index maps over the grid: the input window moves along the rows, the output window along the cells,
    both with the grid point. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = 0 ∧ win0_1.index t (1 : Fin 4) = 0 ∧ win0_1.index t (2 : Fin 4) = t.val ∧ win0_1.index t (3 : Fin 4) = 0 :=
  (by decide +kernel : ∀ t : Fin grid0.N, _)

/-- What point `t` writes back is block `t` of `regionOut` of the input array as the region finds it. -/
theorem flushed_eq (c : Dev nD) (t : Fin cfg0.N) :
    (dats m 0 c).flushed 1 t = ((cfg0.win 1).blk t).view.read (Elt Ideal) (regionOut (V m c main_v0)) := by
  show (cfg0.win 1).cut (grid0.coords t) ((dats m 0 c).after 1 t) = _
  rw [after0_1, out_eq]
  obtain ⟨e0, e1, e2, e3, f0, f1, f2, f3⟩ := idx_facts t
  have hN : t.val < 13 := by have h := t.isLt; have e : cfg0.N = 13 := N_0; omega
  funext y
  have hy0 : (y 0).val < 20 := (y 0).isLt
  have hy1 : (y 1).val < 3 := (y 1).isLt
  have hy2 : (y 2).val < 208 := (y 2).isLt
  have hy3 : (y 3).val < 128 := (y 3).isLt
  show blockOut (iblk m c 0 t) y = regionOut (V m c main_v0) (((cfg0.win 1).blk t).view.emb y)
  unfold blockOut regionOut
  refine congr (congrArg cell (funext fun k' => ?_)) (Fin.ext ?_)
  · unfold iblk
    rw [View.read_apply]
    show V m c main_v0 _ = V m c main_v0 _
    refine congrArg (V m c main_v0) (funext fun a => Fin.ext ?_)
    match a with
    | ⟨0, _⟩ =>
      show win0_0.index t (0 : Fin 4) * 4 + 1 * ((y 2).val / 52) = (win0_1.index t (2 : Fin 4) * 208 + 1 * (y 2).val) / 52
      rw [e0, f2]; omega
    | ⟨1, _⟩ =>
      show win0_0.index t (1 : Fin 4) * 52 + 1 * ((y 2).val % 52) = (win0_1.index t (2 : Fin 4) * 208 + 1 * (y 2).val) % 52
      rw [e1, f2]; omega
    | ⟨2, _⟩ =>
      show win0_0.index t (2 : Fin 4) * 60 + 1 * (20 * (y 1).val + k'.val) = 20 * (win0_1.index t (1 : Fin 4) * 3 + 1 * (y 1).val) + k'.val
      rw [e2, f1]; omega
    | ⟨3, _⟩ =>
      show win0_0.index t (3 : Fin 4) * 128 + 1 * (y 3).val = win0_1.index t (3 : Fin 4) * 128 + 1 * (y 3).val
      rw [e3, f3]
  · show (y 0).val = win0_1.index t (0 : Fin 4) * 20 + 1 * (y 0).val
    rw [f0]; omega

/-- An index of the output array is in point `t`'s block iff each coordinate is in the block's range on its axis. -/
theorem mem_blk (t : Fin cfg0.N) (i : S20x3x2704x128.Idx) :
    i ∈ ((cfg0.win 1).blk t).view.set ↔ ∀ a : Fin 4, win0_1.index t a * S20x3x208x128.size a ≤ (i a).val
      ∧ (i a).val < win0_1.index t a * S20x3x208x128.size a + S20x3x208x128.size a := by
  show i ∈ ((View.whole main_v1).slice (win0_1.rect t)).set ↔ _
  rw [View.set_slice_whole, Rect.mem_set_unit]
  exact Iff.rfl

/-- Every index of the output array is in some point's block: cell g is in block g / 208. -/
theorem cover (i : S20x3x2704x128.Idx) :
    ∃ t : Fin cfg0.N, (cfg0.win 1).flush t = true ∧ i ∈ ((cfg0.win 1).blk t).view.set := by
  have hi0 : (i 0).val < 20 := (i 0).isLt
  have hi1 : (i 1).val < 3 := (i 1).isLt
  have hi2 : (i 2).val < 2704 := (i 2).isLt
  have hi3 : (i 3).val < 128 := (i 3).isLt
  let t : Fin cfg0.N := ⟨(i 2).val / 208, by rw [show cfg0.N = 13 from N_0]; omega⟩
  obtain ⟨e0, e1, e2, e3, f0, f1, f2, f3⟩ := idx_facts t
  have ht : t.val = (i 2).val / 208 := rfl
  refine ⟨t, flush0_1 t, ?_⟩
  rw [mem_blk]
  intro a
  match a with
  | ⟨0, _⟩ => show win0_1.index t (0 : Fin 4) * 20 ≤ (i 0).val ∧ (i 0).val < win0_1.index t (0 : Fin 4) * 20 + 20; rw [f0]; omega
  | ⟨1, _⟩ => show win0_1.index t (1 : Fin 4) * 3 ≤ (i 1).val ∧ (i 1).val < win0_1.index t (1 : Fin 4) * 3 + 3; rw [f1]; omega
  | ⟨2, _⟩ => show win0_1.index t (2 : Fin 4) * 208 ≤ (i 2).val ∧ (i 2).val < win0_1.index t (2 : Fin 4) * 208 + 208; rw [f2, ht]; omega
  | ⟨3, _⟩ => show win0_1.index t (3 : Fin 4) * 128 ≤ (i 3).val ∧ (i 3).val < win0_1.index t (3 : Fin 4) * 128 + 128; rw [f3]; omega

/-- The output array after the region: `regionOut` of the input array. -/
theorem final (c : Dev nD) : (dats m 0 c).arrAt 1 cfg0.N = regionOut (V m c main_v0) :=
  (dats m 0 c).arrAt_eq_of_cover 1 (regionOut (V m c main_v0)) (fun t _ => flushed_eq m c t) cover

end Cert.KernelIdeal.Region

end
-- ==== Proof.Whole.lean ====
/-
  The whole program's result.  Around the region there is one host operation before (the argument [128, 60, 52, 52]
  transposed to [52, 52, 60, 128]: (row, column, channel, image) ← (image, channel, row, column)) and two after (the
  region's [20, 3, 2704, 128] output reshaped to [20, 8112, 128], row n = 2704·anchor + cell, then transposed to
  [128, 8112, 20]).  Composed with the region's function this is `Decode.result` of the argument: result (b, n, k) is
  the decode, channel k, of the argument's 20 values at image b, anchor n / 2704, grid cell (n / 52 % 52, n % 52).
-/
import proofs.«163579_g11012296147525_week1_w3_721_14_alg».proof.Proof.Region
import Idealize.ShloMosaic.Lib.StableHlo.Run

noncomputable section

open scoped BigOperators
open Idealize.ShloMosaic Idealize.ShloMosaic.TcCoe Idealize.ShloMosaic.ValueIdx Idealize.SL.Sem Idealize.ShloMosaic.StableHlo
open Idealize.ShloMosaic.Pipeline (Dat)

namespace Cert.KernelIdeal.Whole

open Cert.KernelIdeal Cert.KernelIdeal.Gen Cert.KernelIdeal.Body Cert.KernelIdeal.Region Cert.Decode

variable (m : (ℓ : Loc nD τ sig) → Buf (Elt Ideal) ℓ) (ρ : Dev nD → PrngReg)

/-- The region's input array is the argument, transposed. -/
theorem entry_eq (c : Dev nD) :
    (V m c main_v0 : S52x52x60x128.Idx → EReal)
      = transpose S52x52x60x128 [2, 3, 1, 0] (m ((c : Thread nD τ).loc main_arg0) : S128x60x52x52.Idx → EReal)
          Gen.transposes_S128x60x52x52_S52x52x60x128_2_3_1_0 := by
  show StableHlo.after hostOps0 (fun b => m (c, b)) (Proc.devRef .tc main_v0) = _
  after_results

/-- The program's result is the region's output array, reshaped and transposed. -/
theorem tail_eq (c : Dev nD) :
    (Pipeline.afterTail₀ cfgs (dats m) 0 (V0 m) [hostOps1] c main_v3 : S128x8112x20.Idx → EReal)
      = transpose S128x8112x20 [2, 1, 0]
          (shapeCast S20x8112x128 (regionOut (V m c main_v0)) Gen.shapeCasts_S20x3x2704x128_S20x8112x128)
          Gen.transposes_S20x8112x128_S128x8112x20_2_1_0 := by
  unfold Pipeline.afterTail₀
  show StableHlo.after hostOps1 _ (Proc.devRef .tc main_v3) = _
  after_results
  rw [Pipeline.withArrays_arr spec0 launch0.win.arr_inj c _ _ 1, final m c]
  rfl

/-- The program's result is `Decode.result` of the argument. -/
theorem result_eq (c : Dev nD) :
    (Pipeline.afterTail₀ cfgs (dats m) 0 (V0 m) [hostOps1] c main_v3 : S128x8112x20.Idx → EReal)
      = Decode.result (m ((c : Thread nD τ).loc main_arg0) : S128x60x52x52.Idx → EReal) := by
  rw [tail_eq, entry_eq]
  funext i
  obtain ⟨b, n, k, rfl⟩ : ∃ (b : Fin 128) (n : Fin 8112) (k : Fin 20), i = ix3 b n k := ⟨i 0, i 1, i 2, eq_ix3 i⟩
  have hn : n.val < 8112 := n.isLt
  -- the last transpose: result (b, n, k) is the reshaped array at (k, n, b)
  refine (transpose_apply [2, 1, 0] _ Gen.transposes_S20x8112x128_S128x8112x20_2_1_0 (ix3 b n k) (ix3 k n b) (fun a => by
    match a with
    | ⟨0, _⟩ => rfl
    | ⟨1, _⟩ => rfl
    | ⟨2, _⟩ => rfl)).trans ?_
  -- the reshape: row n of the reshaped array is (anchor n / 2704, cell n % 2704) of the region's output
  refine (shapeCast_apply _ Gen.shapeCasts_S20x3x2704x128_S20x8112x128 (ix3 k n b)
    (ix4 k (⟨n.val / 2704, by omega⟩ : Fin 3) (⟨n.val % 2704, by omega⟩ : Fin 2704) b) (by
      rw [Shape.rowMajor_val_four, Shape.rowMajor_val_three]
      show ((k.val * 3 + n.val / 2704) * 2704 + n.val % 2704) * 128 + b.val = (k.val * 8112 + n.val) * 128 + b.val
      omega)).trans ?_
  -- the region's function, then the first transpose
  unfold regionOut Decode.result Decode.resultAt Decode.raw
  refine congr (congrArg cell (funext fun k' => ?_)) (Fin.ext rfl)
  refine (transpose_apply [2, 3, 1, 0] _ Gen.transposes_S128x60x52x52_S52x52x60x128_2_3_1_0
    (ix4 (⟨n.val % 2704 / 52, by omega⟩ : Fin 52) (⟨n.val % 2704 % 52, by omega⟩ : Fin 52)
      (⟨20 * (n.val / 2704) + k'.val, by omega⟩ : Fin 60) b)
    (ix4 b (⟨20 * (n.val / 2704) + k'.val, by omega⟩ : Fin 60) (⟨n.val % 2704 / 52, by omega⟩ : Fin 52) (⟨n.val % 2704 % 52, by omega⟩ : Fin 52))
    (fun a => by
      match a with
      | ⟨0, _⟩ => rfl
      | ⟨1, _⟩ => rfl
      | ⟨2, _⟩ => rfl
      | ⟨3, _⟩ => rfl)).trans ?_
  refine congrArg (m ((c : Thread nD τ).loc main_arg0) : S128x60x52x52.Idx → EReal) (funext fun a => Fin.ext ?_)
  match a with
  | ⟨0, _⟩ => rfl
  | ⟨1, _⟩ => rfl
  | ⟨2, _⟩ => show n.val % 2704 / 52 = n.val / 52 % 52; omega
  | ⟨3, _⟩ => show n.val % 2704 % 52 = n.val % 52; omega

/-- The run, read: every weakly fair execution ends with the result at `Decode.result` of the argument, the argument
    unchanged. -/
theorem run : θ_run defs (onTc (τ := τ) (main (F := Ideal))) ⟨m, fun _ => 0, ρ⟩ fun r => ∀ c : Dev nD,
      r.2.mem ((c.tc : Thread nD τ).loc main_v3) = Decode.result (m ((c.tc : Thread nD τ).loc main_arg0) : S128x60x52x52.Idx → EReal)
      ∧ r.2.mem ((c.tc : Thread nD τ).loc main_arg0) = m ((c.tc : Thread nD τ).loc main_arg0) :=
  (θ_run defs _ _).mono (fun r h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c)⟩)
    (run_main m ρ)

end Cert.KernelIdeal.Whole

end
-- ==== Proof.RefCell.lean ====
/-
  The reference, one grid cell at a time.  The reference reshapes the argument to [128, 3, 20, 52, 52] and moves the
  channel axis last, so that entry (b, a, h, w, k) is the argument at (b, 20·a + k, h, w): the cell's raw values.  It
  slices channels 0 … 4 and the 15 class channels off that array and decodes them: the logistic written out as
  1 / (1 + exp (−z)) (which IS `Ideal.logistic z`, the word for 1 evaluated), the softmax with its maximum started
  from −∞ and joined once more with −∞ (which changes nothing: a maximum started from a value is at least that value).
-/
import proofs.«163579_g11012296147525_week1_w3_721_14_alg».proof.Proof.RefRead
import proofs.«163579_g11012296147525_week1_w3_721_14_alg».proof.Proof.Spec
import Idealize.ShloMosaic.Lib.ValueIdx
import Idealize.ShloMosaic.PureOps.Ideal.Laws

noncomputable section

open scoped BigOperators
open Idealize.ShloMosaic Idealize.ShloMosaic.ValueIdx

namespace Cert.ReferenceIdeal.Hand

open Cert.ReferenceIdeal Cert.ReferenceIdeal.Gen Cert.ReferenceIdeal.ReadP Cert.Decode

/-- The word the reference prints for 1 is the extended real 1. -/
theorem one_word : Ideal.ofBits .f32 0x3F800000#32 = 1 := by
  simp [Ideal.ofBits, Ideal.ieee, -EReal.coe_mul]; norm_num

/-- The argument with the channel axis split and moved last: entry (b, a, h, w, k) is the cell's raw value k. -/
theorem pred_at (x : (⟨S128x60x52x52, .f32⟩ : BufTy).Contents (Elt Ideal)) (b : Fin 128) (a : Fin 3) (h w : Fin 52) (k : Fin 20) :
    val_main_v1 (F := Ideal) x (ix5 b a h w k) = raw x b a h w k := by
  have hb := b.isLt; have ha := a.isLt; have hh := h.isLt; have hw := w.isLt; have hk := k.isLt
  rw [val_main_v1_apply, val_main_v0_apply]
  unfold raw
  refine congrArg x (funext fun c => Fin.ext ?_)
  match c with
  | ⟨0, _⟩ => show ((((b.val * 3 + a.val) * 20 + k.val) * 52 + h.val) * 52 + w.val) / 162240 = b.val; omega
  | ⟨1, _⟩ => show ((((b.val * 3 + a.val) * 20 + k.val) * 52 + h.val) * 52 + w.val) / 2704 % 60 = 20 * a.val + k.val; omega
  | ⟨2, _⟩ => show ((((b.val * 3 + a.val) * 20 + k.val) * 52 + h.val) * 52 + w.val) / 52 % 52 = h.val; omega
  | ⟨3, _⟩ => show ((((b.val * 3 + a.val) * 20 + k.val) * 52 + h.val) * 52 + w.val) % 52 = w.val; omega

/-- Channel 0 of every cell: the box centre's first raw value. -/
theorem chan0_at (x : (⟨S128x60x52x52, .f32⟩ : BufTy).Contents (Elt Ideal)) (b : Fin 128) (a : Fin 3) (h w : Fin 52) :
    val_main_v3 (F := Ideal) x (ix4 b a h w) = raw x b a h w (⟨0, by omega⟩ : Fin 20) := by
  have hb := b.isLt; have ha := a.isLt; have hh := h.isLt; have hw := w.isLt
  rw [val_main_v3_apply, val_main_v2_apply]
  refine (congrArg (val_main_v1 (F := Ideal) x) (?_ : _ = ix5 b a h w (⟨0, by omega⟩ : Fin 20))).trans (pred_at x b a h w _)
  funext c
  apply Fin.ext
  match c with
  | ⟨0, _⟩ => show (((b.val * 3 + a.val) * 52 + h.val) * 52 + w.val) / 8112 = b.val; omega
  | ⟨1, _⟩ => show (((b.val * 3 + a.val) * 52 + h.val) * 52 + w.val) / 2704 % 3 = a.val; omega
  | ⟨2, _⟩ => show (((b.val * 3 + a.val) * 52 + h.val) * 52 + w.val) / 52 % 52 = h.val; omega
  | ⟨3, _⟩ => show (((b.val * 3 + a.val) * 52 + h.val) * 52 + w.val) / 1 % 52 = w.val; omega
  | ⟨4, _⟩ => show 0 + 0 = 0; omega

/-- Channel 1: the box centre's second raw value. -/
theorem chan1_at (x : (⟨S128x60x52x52, .f32⟩ : BufTy).Contents (Elt Ideal)) (b : Fin 128) (a : Fin 3) (h w : Fin 52) :
    val_main_v11 (F := Ideal) x (ix4 b a h w) = raw x b a h w (⟨1, by omega⟩ : Fin 20) := by
  have hb := b.isLt; have ha := a.isLt; have hh := h.isLt; have hw := w.isLt
  rw [val_main_v11_apply, val_main_v10_apply]
  refine (congrArg (val_main_v1 (F := Ideal) x) (?_ : _ = ix5 b a h w (⟨1, by omega⟩ : Fin 20))).trans (pred_at x b a h w _)
  funext c
  apply Fin.ext
  match c with
  | ⟨0, _⟩ => show (((b.val * 3 + a.val) * 52 + h.val) * 52 + w.val) / 8112 = b.val; omega
  | ⟨1, _⟩ => show (((b.val * 3 + a.val) * 52 + h.val) * 52 + w.val) / 2704 % 3 = a.val; omega
  | ⟨2, _⟩ => show (((b.val * 3 + a.val) * 52 + h.val) * 52 + w.val) / 52 % 52 = h.val; omega
  | ⟨3, _⟩ => show (((b.val * 3 + a.val) * 52 + h.val) * 52 + w.val) / 1 % 52 = w.val; omega
  | ⟨4, _⟩ => show 0 + 1 = 1; omega

/-- Channel 2: the box extent's first raw value. -/
theorem chan2_at (x : (⟨S128x60x52x52, .f32⟩ : BufTy).Contents (Elt Ideal)) (b : Fin 128) (a : Fin 3) (h w : Fin 52) :
    val_main_v19 (F := Ideal) x (ix4 b a h w) = raw x b a h w (⟨2, by omega⟩ : Fin 20) := by
  have hb := b.isLt; have ha := a.isLt; have hh := h.isLt; have hw := w.isLt
  rw [val_main_v19_apply, val_main_v18_apply]
  refine (congrArg (val_main_v1 (F := Ideal) x) (?_ : _ = ix5 b a h w (⟨2, by omega⟩ : Fin 20))).trans (pred_at x b a h w _)
  funext c
  apply Fin.ext
  match c with
  | ⟨0, _⟩ => show (((b.val * 3 + a.val) * 52 + h.val) * 52 + w.val) / 8112 = b.val; omega
  | ⟨1, _⟩ => show (((b.val * 3 + a.val) * 52 + h.val) * 52 + w.val) / 2704 % 3 = a.val; omega
  | ⟨2, _⟩ => show (((b.val * 3 + a.val) * 52 + h.val) * 52 + w.val) / 52 % 52 = h.val; omega
  | ⟨3, _⟩ => show (((b.val * 3 + a.val) * 52 + h.val) * 52 + w.val) / 1 % 52 = w.val; omega
  | ⟨4, _⟩ => show 0 + 2 = 2; omega

/-- Channel 3: the box extent's second raw value. -/
theorem chan3_at (x : (⟨S128x60x52x52, .f32⟩ : BufTy).Contents (Elt Ideal)) (b : Fin 128) (a : Fin 3) (h w : Fin 52) :
    val_main_v21 (F := Ideal) x (ix4 b a h w) = raw x b a h w (⟨3, by omega⟩ : Fin 20) := by
  have hb := b.isLt; have ha := a.isLt; have hh := h.isLt; have hw := w.isLt
  rw [val_main_v21_apply, val_main_v20_apply]
  refine (congrArg (val_main_v1 (F := Ideal) x) (?_ : _ = ix5 b a h w (⟨3, by omega⟩ : Fin 20))).trans (pred_at x b a h w _)
  funext c
  apply Fin.ext
  match c with
  | ⟨0, _⟩ => show (((b.val * 3 + a.val) * 52 + h.val) * 52 + w.val) / 8112 = b.val; omega
  | ⟨1, _⟩ => show (((b.val * 3 + a.val) * 52 + h.val) * 52 + w.val) / 2704 % 3 = a.val; omega
  | ⟨2, _⟩ => show (((b.val * 3 + a.val) * 52 + h.val) * 52 + w.val) / 52 % 52 = h.val; omega
  | ⟨3, _⟩ => show (((b.val * 3 + a.val) * 52 + h.val) * 52 + w.val) / 1 % 52 = w.val; omega
  | ⟨4, _⟩ => show 0 + 3 = 3; omega

/-- Channel 4: the confidence's raw value. -/
theorem chan4_at (x : (⟨S128x60x52x52, .f32⟩ : BufTy).Contents (Elt Ideal)) (b : Fin 128) (a : Fin 3) (h w : Fin 52) :
    val_main_v23 (F := Ideal) x (ix4 b a h w) = raw x b a h w (⟨4, by omega⟩ : Fin 20) := by
  have hb := b.isLt; have ha := a.isLt; have hh := h.isLt; have hw := w.isLt
  rw [val_main_v23_apply, val_main_v22_apply]
  refine (congrArg (val_main_v1 (F := Ideal) x) (?_ : _ = ix5 b a h w (⟨4, by omega⟩ : Fin 20))).trans (pred_at x b a h w _)
  funext c
  apply Fin.ext
  match c with
  | ⟨0, _⟩ => show (((b.val * 3 + a.val) * 52 + h.val) * 52 + w.val) / 8112 = b.val; omega
  | ⟨1, _⟩ => show (((b.val * 3 + a.val) * 52 + h.val) * 52 + w.val) / 2704 % 3 = a.val; omega
  | ⟨2, _⟩ => show (((b.val * 3 + a.val) * 52 + h.val) * 52 + w.val) / 52 % 52 = h.val; omega
  | ⟨3, _⟩ => show (((b.val * 3 + a.val) * 52 + h.val) * 52 + w.val) / 1 % 52 = w.val; omega
  | ⟨4, _⟩ => show 0 + 4 = 4; omega

/-- The reference's 1 / (1 + exp (−z)) on channel 0 is the logistic. -/
theorem sig0 (x : (⟨S128x60x52x52, .f32⟩ : BufTy).Contents (Elt Ideal)) (i : S128x3x52x52.Idx) :
    val_main_v9 (F := Ideal) x i = Ideal.logistic (val_main_v3 (F := Ideal) x i) := by
  rw [val_main_v9_apply, val_main_v8_apply, val_main_cst_0_apply, val_main_v7_apply, val_main_v6_apply, val_main_cst_apply, val_main_v5_apply, val_main_v4_apply]
  show Ideal.div (Ideal.ofBits .f32 0x3F800000#32) (Ideal.ofBits .f32 0x3F800000#32 + Ideal.exp (-(val_main_v3 (F := Ideal) x i))) = _
  rw [one_word]
  rfl

/-- The same on channel 1. -/
theorem sig1 (x : (⟨S128x60x52x52, .f32⟩ : BufTy).Contents (Elt Ideal)) (i : S128x3x52x52.Idx) :
    val_main_v17 (F := Ideal) x i = Ideal.logistic (val_main_v11 (F := Ideal) x i) := by
  rw [val_main_v17_apply, val_main_v16_apply, val_main_cst_2_apply, val_main_v15_apply, val_main_v14_apply, val_main_cst_1_apply, val_main_v13_apply, val_main_v12_apply]
  show Ideal.div (Ideal.ofBits .f32 0x3F800000#32) (Ideal.ofBits .f32 0x3F800000#32 + Ideal.exp (-(val_main_v11 (F := Ideal) x i))) = _
  rw [one_word]
  rfl

/-- The same on channel 4. -/
theorem sig4 (x : (⟨S128x60x52x52, .f32⟩ : BufTy).Contents (Elt Ideal)) (i : S128x3x52x52.Idx) :
    val_main_v29 (F := Ideal) x i = Ideal.logistic (val_main_v23 (F := Ideal) x i) := by
  rw [val_main_v29_apply, val_main_v28_apply, val_main_cst_4_apply, val_main_v27_apply, val_main_v26_apply, val_main_cst_3_apply, val_main_v25_apply, val_main_v24_apply]
  show Ideal.div (Ideal.ofBits .f32 0x3F800000#32) (Ideal.ofBits .f32 0x3F800000#32 + Ideal.exp (-(val_main_v23 (F := Ideal) x i))) = _
  rw [one_word]
  rfl

end Cert.ReferenceIdeal.Hand

end
-- ==== Proof.RefClass.lean ====
/-
  The reference's class scores, one grid cell at a time: the 15 class values of the cell, their maximum (started from
  −∞, then joined with −∞ once more, which changes nothing), the shifted exponentials, their sum (started from 0) and the
  quotient.  Each reduction runs over the last axis of a [128, 3, 52, 52, 15] array: the reduced index (b, a, h, w) with
  the class j put back last is (b, a, h, w, j).
-/
import proofs.«163579_g11012296147525_week1_w3_721_14_alg».proof.Proof.RefCell
import Idealize.ShloMosaic.PureOps.Reduce

noncomputable section

open scoped BigOperators
open Idealize.ShloMosaic Idealize.ShloMosaic.ValueIdx

namespace Cert.ReferenceIdeal.Hand

open Cert.ReferenceIdeal Cert.ReferenceIdeal.Gen Cert.ReferenceIdeal.ReadP Cert.Decode

/-- The cell's 15 class values. -/
theorem cls_at (x : (⟨S128x60x52x52, .f32⟩ : BufTy).Contents (Elt Ideal)) (b : Fin 128) (a : Fin 3) (h w : Fin 52) (j : Fin 15) :
    val_main_v30 (F := Ideal) x (ix5 b a h w j) = logits (raw x b a h w) j := by
  rw [val_main_v30_apply]
  refine (congrArg (val_main_v1 (F := Ideal) x) (?_ : _ = ix5 b a h w (⟨5 + j.val, by omega⟩ : Fin 20))).trans (pred_at x b a h w _)
  funext c
  apply Fin.ext
  match c with
  | ⟨0, _⟩ => rfl
  | ⟨1, _⟩ => rfl
  | ⟨2, _⟩ => rfl
  | ⟨3, _⟩ => rfl
  | ⟨4, _⟩ => rfl

/-- The class axis is the one the reductions drop. -/
theorem drops_class : S128x3x52x52x15.Reduces [4] S128x3x52x52 := by decide

/-- The reduced index (b, a, h, w) with class `j` put back last. -/
theorem lift_class (b : Fin 128) (a : Fin 3) (h w : Fin 52) (j : Fin 15) :
    drops_class.lift (ix4 b a h w) j = ix5 b a h w j := by
  funext c
  match c with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- A maximum started from a value and joined with that value again is the maximum. -/
theorem max_fold_self {ι : Type} (s : Finset ι) (c : EReal) (f : ι → EReal) : max c (s.fold max c f) = s.fold max c f := by
  classical
  refine max_eq_right ?_
  induction s using Finset.induction_on with
  | empty => rw [Finset.fold_empty]
  | insert i s hi ih => rw [Finset.fold_insert hi]; exact le_max_of_le_right ih

/-- The cell's largest class value, as the reference takes it. -/
theorem top_at (x : (⟨S128x60x52x52, .f32⟩ : BufTy).Contents (Elt Ideal)) (b : Fin 128) (a : Fin 3) (h w : Fin 52) :
    val_main_v33 (F := Ideal) x (ix4 b a h w) = top (raw x b a h w) := by
  rw [val_main_v33_apply, val_main_v32_apply, val_main_cst_6_apply]
  unfold val_main_v31
  have e := Host.reduce_eq_fold_single (FloatOps.maximumf (F := Ideal) (φ := .f32)) (val_main_v30 (F := Ideal) x)
    (val_main_cst_5 (F := Ideal)) Gen.reducesTo_S128x3x52x52x15_S128x3x52x52_d4 drops_class Gen.h_S_ (ix4 b a h w)
  refine (congrArg (max (Ideal.ofBits .f32 0xFF800000#32)) e).trans ?_
  have e' : (val_main_v30 (F := Ideal) x ∘ drops_class.lift (ix4 b a h w)) = logits (raw x b a h w) :=
    funext fun j => (congrArg (val_main_v30 (F := Ideal) x) (lift_class b a h w j)).trans (cls_at x b a h w j)
  rw [e']
  exact max_fold_self _ _ _

/-- The maximum broadcast back over the classes. -/
theorem spread_top (x : (⟨S128x60x52x52, .f32⟩ : BufTy).Contents (Elt Ideal)) (b : Fin 128) (a : Fin 3) (h w : Fin 52) (j : Fin 15) :
    val_main_v35 (F := Ideal) x (ix5 b a h w j) = top (raw x b a h w) := by
  rw [val_main_v35_apply, val_main_v34_apply]
  refine (congrArg (val_main_v33 (F := Ideal) x) (?_ : _ = ix4 b a h w)).trans (top_at x b a h w)
  funext c
  apply Fin.ext
  match c with
  | ⟨0, _⟩ => rfl
  | ⟨1, _⟩ => rfl
  | ⟨2, _⟩ => rfl
  | ⟨3, _⟩ => rfl

/-- The shifted exponentials. -/
theorem shifted_at (x : (⟨S128x60x52x52, .f32⟩ : BufTy).Contents (Elt Ideal)) (b : Fin 128) (a : Fin 3) (h w : Fin 52) (j : Fin 15) :
    val_main_v37 (F := Ideal) x (ix5 b a h w j) = Ideal.exp (logits (raw x b a h w) j - top (raw x b a h w)) := by
  rw [val_main_v37_apply, val_main_v36_apply, cls_at, spread_top]
  rfl

/-- Their sum, started from 0. -/
theorem mass_at (x : (⟨S128x60x52x52, .f32⟩ : BufTy).Contents (Elt Ideal)) (b : Fin 128) (a : Fin 3) (h w : Fin 52) :
    val_main_v38 (F := Ideal) x (ix4 b a h w) = mass (raw x b a h w) := by
  rw [val_main_v38_apply, val_main_cst_7_apply]
  show Ideal.ofBits .f32 0x00000000#32 + _ = _
  rw [Ideal.ofBits_zero_f32, zero_add]
  unfold mass
  refine Finset.sum_congr rfl fun j _ => ?_
  refine (congrArg (val_main_v37 (F := Ideal) x) (?_ : _ = ix5 b a h w j)).trans (shifted_at x b a h w j)
  funext c
  apply Fin.ext
  match c with
  | ⟨0, _⟩ => rfl
  | ⟨1, _⟩ => rfl
  | ⟨2, _⟩ => rfl
  | ⟨3, _⟩ => rfl
  | ⟨4, _⟩ => rfl

/-- The sum broadcast back over the classes. -/
theorem spread_mass (x : (⟨S128x60x52x52, .f32⟩ : BufTy).Contents (Elt Ideal)) (b : Fin 128) (a : Fin 3) (h w : Fin 52) (j : Fin 15) :
    val_main_v40 (F := Ideal) x (ix5 b a h w j) = mass (raw x b a h w) := by
  rw [val_main_v40_apply, val_main_v39_apply]
  refine (congrArg (val_main_v38 (F := Ideal) x) (?_ : _ = ix4 b a h w)).trans (mass_at x b a h w)
  funext c
  apply Fin.ext
  match c with
  | ⟨0, _⟩ => rfl
  | ⟨1, _⟩ => rfl
  | ⟨2, _⟩ => rfl
  | ⟨3, _⟩ => rfl

/-- The cell's class scores. -/
theorem score_at (x : (⟨S128x60x52x52, .f32⟩ : BufTy).Contents (Elt Ideal)) (b : Fin 128) (a : Fin 3) (h w : Fin 52) (j : Fin 15) :
    val_main_v41 (F := Ideal) x (ix5 b a h w j)
      = Ideal.div (Ideal.exp (logits (raw x b a h w) j - top (raw x b a h w))) (mass (raw x b a h w)) := by
  rw [val_main_v41_apply, shifted_at, spread_mass]
  rfl

end Cert.ReferenceIdeal.Hand

end
-- ==== Proof.RefResult.lean ====
/-
  The reference's result, whole: the four box channels joined, reshaped to rows n = 2704·a + 52·h + w and scaled by 8;
  the confidence reshaped to the same rows; the class scores reshaped to the same rows; the three joined along the
  channel axis.  At (b, n, k) this is `Decode.cell` of the raw values of image b, anchor n / 2704, grid cell
  (n / 52 % 52, n % 52), channel k: `Decode.result`.
-/
import proofs.«163579_g11012296147525_week1_w3_721_14_alg».proof.Proof.RefClass
import Idealize.ShloMosaic.Lib.Pipeline.Value

noncomputable section

open scoped BigOperators
open Idealize.ShloMosaic Idealize.ShloMosaic.ValueIdx

namespace Cert.ReferenceIdeal.Hand

open Cert.ReferenceIdeal Cert.ReferenceIdeal.Gen Cert.ReferenceIdeal.ReadP Cert.Decode

/-- One of the four box channels inside their join: the operand number `g` at its one index on the joined axis. -/
theorem box_piece (x : (⟨S128x60x52x52, .f32⟩ : BufTy).Contents (Elt Ideal)) (b : Fin 128) (a : Fin 3) (h w : Fin 52) (q : Fin 4)
    (g : Nat) (hg : g < 4) (x₁ : S128x3x52x52x1.Idx → EReal)
    (hx : ([⟨S128x3x52x52x1, val_main_v42 (F := Ideal) x⟩, ⟨S128x3x52x52x1, val_main_v43 (F := Ideal) x⟩,
        ⟨S128x3x52x52x1, val_main_v44 (F := Ideal) x⟩, ⟨S128x3x52x52x1, val_main_v45 (F := Ideal) x⟩] : List ((s : Shape) × (s.Idx → EReal)))[g]'hg
      = ⟨S128x3x52x52x1, x₁⟩)
    (hpre : (((([⟨S128x3x52x52x1, val_main_v42 (F := Ideal) x⟩, ⟨S128x3x52x52x1, val_main_v43 (F := Ideal) x⟩,
        ⟨S128x3x52x52x1, val_main_v44 (F := Ideal) x⟩, ⟨S128x3x52x52x1, val_main_v45 (F := Ideal) x⟩] : List ((s : Shape) × (s.Idx → EReal))).take g).map (·.1)).map
      (fun s : Shape => if h : s.rank = S128x3x52x52x4.rank then s.size ((4 : Fin S128x3x52x52x4.rank).cast h.symm) else 0)).sum = g)
    (hq : g + 0 = q.val) :
    val_main_v46 (F := Ideal) x (ix5 b a h w q) = x₁ (ix5 b a h w (0 : Fin 1)) := by
  unfold val_main_v46
  exact concatenate_apply_piece (4 : Fin S128x3x52x52x4.rank)
    [⟨S128x3x52x52x1, val_main_v42 (F := Ideal) x⟩, ⟨S128x3x52x52x1, val_main_v43 (F := Ideal) x⟩,
      ⟨S128x3x52x52x1, val_main_v44 (F := Ideal) x⟩, ⟨S128x3x52x52x1, val_main_v45 (F := Ideal) x⟩]
    Gen.concatenates_S128x3x52x52x1_S128x3x52x52x1_S128x3x52x52x1_S128x3x52x52x1_S128x3x52x52x4_d4
    (ix5 b a h w q) g hg S128x3x52x52x1 x₁ hx rfl g hpre (ix5 b a h w (0 : Fin 1))
    (fun c hc => by
      match c with
      | ⟨0, _⟩ => rfl
      | ⟨1, _⟩ => rfl
      | ⟨2, _⟩ => rfl
      | ⟨3, _⟩ => rfl
      | ⟨4, _⟩ => exact absurd rfl hc)
    hq

/-- A per-cell array given a unit last axis, read back at the cell. -/
theorem unit_last (y : S128x3x52x52.Idx → EReal) (b : Fin 128) (a : Fin 3) (h w : Fin 52) :
    broadcastInDim S128x3x52x52x1 ![0, 1, 2, 3] Gen.bcast_S128x3x52x52_S128x3x52x52x1_0_1_2_3 y (ix5 b a h w (0 : Fin 1)) = y (ix4 b a h w) :=
  broadcastInDim_apply ![0, 1, 2, 3] Gen.bcast_S128x3x52x52_S128x3x52x52x1_0_1_2_3 y (ix5 b a h w (0 : Fin 1)) (ix4 b a h w) (fun c => by
    match c with
    | ⟨0, _⟩ => rfl
    | ⟨1, _⟩ => rfl
    | ⟨2, _⟩ => rfl
    | ⟨3, _⟩ => rfl)

/-- The four box channels joined: at (b, a, h, w, q) the decoded box channel q before the scale. -/
theorem box_at (x : (⟨S128x60x52x52, .f32⟩ : BufTy).Contents (Elt Ideal)) (b : Fin 128) (a : Fin 3) (h w : Fin 52) (q : Fin 4) :
    val_main_v46 (F := Ideal) x (ix5 b a h w q)
      = if q.val < 2 then Ideal.logistic (raw x b a h w ⟨q.val, by omega⟩) else raw x b a h w ⟨q.val, by omega⟩ := by
  have hq := q.isLt
  by_cases h0 : q.val = 0
  · rw [box_piece x b a h w q 0 (by decide) _ rfl rfl (by omega), if_pos (by omega)]
    show broadcastInDim S128x3x52x52x1 ![0, 1, 2, 3] _ (val_main_v9 (F := Ideal) x) _ = _
    rw [unit_last, sig0, chan0_at]
    exact congrArg (fun k => Ideal.logistic (raw x b a h w k)) (Fin.ext (by show 0 = q.val; omega))
  · by_cases h1 : q.val = 1
    · rw [box_piece x b a h w q 1 (by decide) _ rfl rfl (by omega), if_pos (by omega)]
      show broadcastInDim S128x3x52x52x1 ![0, 1, 2, 3] _ (val_main_v17 (F := Ideal) x) _ = _
      rw [unit_last, sig1, chan1_at]
      exact congrArg (fun k => Ideal.logistic (raw x b a h w k)) (Fin.ext (by show 1 = q.val; omega))
    · by_cases h2 : q.val = 2
      · rw [box_piece x b a h w q 2 (by decide) _ rfl rfl (by omega), if_neg (by omega)]
        show broadcastInDim S128x3x52x52x1 ![0, 1, 2, 3] _ (val_main_v19 (F := Ideal) x) _ = _
        rw [unit_last, chan2_at]
        exact congrArg (raw x b a h w) (Fin.ext (by show 2 = q.val; omega))
      · rw [box_piece x b a h w q 3 (by decide) _ rfl rfl (by omega), if_neg (by omega)]
        show broadcastInDim S128x3x52x52x1 ![0, 1, 2, 3] _ (val_main_v21 (F := Ideal) x) _ = _
        rw [unit_last, chan3_at]
        exact congrArg (raw x b a h w) (Fin.ext (by show 3 = q.val; omega))

/-- One of the three groups of channels inside the last join. -/
theorem group_piece (x : (⟨S128x60x52x52, .f32⟩ : BufTy).Contents (Elt Ideal)) (b : Fin 128) (n : Fin 8112) (k : Fin 20) {N : Nat}
    (g : Nat) (hg : g < 3) (x₁ : (⟨3, ![128, 8112, N]⟩ : Shape).Idx → EReal)
    (hx : ([⟨S128x8112x4, val_main_v49 (F := Ideal) x⟩, ⟨S128x8112x1, val_main_v50 (F := Ideal) x⟩,
        ⟨S128x8112x15, val_main_v51 (F := Ideal) x⟩] : List ((s : Shape) × (s.Idx → EReal)))[g]'hg = ⟨⟨3, ![128, 8112, N]⟩, x₁⟩)
    (pre : Nat)
    (hpre : (((([⟨S128x8112x4, val_main_v49 (F := Ideal) x⟩, ⟨S128x8112x1, val_main_v50 (F := Ideal) x⟩,
        ⟨S128x8112x15, val_main_v51 (F := Ideal) x⟩] : List ((s : Shape) × (s.Idx → EReal))).take g).map (·.1)).map
      (fun s : Shape => if h : s.rank = S128x8112x20.rank then s.size ((2 : Fin S128x8112x20.rank).cast h.symm) else 0)).sum = pre)
    (q : Fin N) (hq : pre + q.val = k.val) :
    val_main_v52 (F := Ideal) x (ix3 b n k) = x₁ (ix3 b n q) := by
  unfold val_main_v52
  exact concatenate_apply_piece (2 : Fin S128x8112x20.rank)
    [⟨S128x8112x4, val_main_v49 (F := Ideal) x⟩, ⟨S128x8112x1, val_main_v50 (F := Ideal) x⟩, ⟨S128x8112x15, val_main_v51 (F := Ideal) x⟩]
    Gen.concatenates_S128x8112x4_S128x8112x1_S128x8112x15_S128x8112x20_d2
    (ix3 b n k) g hg ⟨3, ![128, 8112, N]⟩ x₁ hx rfl pre hpre (ix3 b n q)
    (fun c hc => by
      match c with
      | ⟨0, _⟩ => rfl
      | ⟨1, _⟩ => rfl
      | ⟨2, _⟩ => exact absurd rfl hc)
    hq

/-- The reference's result array is `Decode.result` of the argument. -/
theorem result_eq (x : (⟨S128x60x52x52, .f32⟩ : BufTy).Contents (Elt Ideal)) : val_main_v52 (F := Ideal) x = Decode.result x := by
  funext i
  obtain ⟨b, n, k, rfl⟩ : ∃ (b : Fin 128) (n : Fin 8112) (k : Fin 20), i = ix3 b n k := ⟨i 0, i 1, i 2, eq_ix3 i⟩
  have hb := b.isLt; have hn := n.isLt; have hk := k.isLt
  show _ = cell (raw x b ⟨n.val / 2704, by omega⟩ ⟨n.val / 52 % 52, by omega⟩ ⟨n.val % 52, by omega⟩) k
  by_cases h4 : k.val < 4
  · -- a box channel: reshaped from the join of the four, then scaled
    rw [group_piece x b n k 0 (by decide) _ rfl 0 rfl (⟨k.val, h4⟩ : Fin 4) (by show 0 + k.val = k.val; omega)]
    rw [val_main_v49_apply, val_main_v48_apply, val_main_cst_8_apply, val_main_v47_apply]
    have e : idx_main_v47 (ix3 b n (⟨k.val, h4⟩ : Fin 4))
        = ix5 b (⟨n.val / 2704, by omega⟩ : Fin 3) (⟨n.val / 52 % 52, by omega⟩ : Fin 52) (⟨n.val % 52, by omega⟩ : Fin 52) (⟨k.val, h4⟩ : Fin 4) := by
      funext c
      apply Fin.ext
      match c with
      | ⟨0, _⟩ => show ((b.val * 8112 + n.val) * 4 + k.val) / 32448 = b.val; omega
      | ⟨1, _⟩ => show ((b.val * 8112 + n.val) * 4 + k.val) / 10816 % 3 = n.val / 2704; omega
      | ⟨2, _⟩ => show ((b.val * 8112 + n.val) * 4 + k.val) / 208 % 52 = n.val / 52 % 52; omega
      | ⟨3, _⟩ => show ((b.val * 8112 + n.val) * 4 + k.val) / 4 % 52 = n.val % 52; omega
      | ⟨4, _⟩ => show ((b.val * 8112 + n.val) * 4 + k.val) % 4 = k.val; omega
    rw [e, box_at]
    unfold cell
    by_cases h2 : k.val < 2
    · rw [if_pos h2, if_pos (show (⟨k.val, h4⟩ : Fin 4).val < 2 from h2)]
      rfl
    · rw [if_neg h2, if_pos h4, if_neg (show ¬ (⟨k.val, h4⟩ : Fin 4).val < 2 from h2)]
      rfl
  · by_cases h5 : k.val < 5
    · -- the confidence
      rw [group_piece x b n k 1 (by decide) _ rfl 4 rfl (⟨0, by omega⟩ : Fin 1) (by show 4 + 0 = k.val; omega)]
      rw [val_main_v50_apply]
      have e : idx_main_v50 (ix3 b n (⟨0, by omega⟩ : Fin 1))
          = ix4 b (⟨n.val / 2704, by omega⟩ : Fin 3) (⟨n.val / 52 % 52, by omega⟩ : Fin 52) (⟨n.val % 52, by omega⟩ : Fin 52) := by
        funext c
        apply Fin.ext
        match c with
        | ⟨0, _⟩ => show ((b.val * 8112 + n.val) * 1 + 0) / 8112 = b.val; omega
        | ⟨1, _⟩ => show ((b.val * 8112 + n.val) * 1 + 0) / 2704 % 3 = n.val / 2704; omega
        | ⟨2, _⟩ => show ((b.val * 8112 + n.val) * 1 + 0) / 52 % 52 = n.val / 52 % 52; omega
        | ⟨3, _⟩ => show ((b.val * 8112 + n.val) * 1 + 0) % 52 = n.val % 52; omega
      rw [e, sig4, chan4_at]
      unfold cell
      rw [if_neg (by omega), if_neg h4, if_pos h5]
      exact congrArg (fun q => Ideal.logistic (raw x b _ _ _ q)) (Fin.ext (by show 4 = k.val; omega))
    · -- a class score
      rw [group_piece x b n k 2 (by decide) _ rfl 5 rfl (⟨k.val - 5, by omega⟩ : Fin 15) (by show 5 + (k.val - 5) = k.val; omega)]
      rw [val_main_v51_apply]
      have e : idx_main_v51 (ix3 b n (⟨k.val - 5, by omega⟩ : Fin 15))
          = ix5 b (⟨n.val / 2704, by omega⟩ : Fin 3) (⟨n.val / 52 % 52, by omega⟩ : Fin 52) (⟨n.val % 52, by omega⟩ : Fin 52) (⟨k.val - 5, by omega⟩ : Fin 15) := by
        funext c
        apply Fin.ext
        match c with
        | ⟨0, _⟩ => show ((b.val * 8112 + n.val) * 15 + (k.val - 5)) / 121680 = b.val; omega
        | ⟨1, _⟩ => show ((b.val * 8112 + n.val) * 15 + (k.val - 5)) / 40560 % 3 = n.val / 2704; omega
        | ⟨2, _⟩ => show ((b.val * 8112 + n.val) * 15 + (k.val - 5)) / 780 % 52 = n.val / 52 % 52; omega
        | ⟨3, _⟩ => show ((b.val * 8112 + n.val) * 15 + (k.val - 5)) / 15 % 52 = n.val % 52; omega
        | ⟨4, _⟩ => show ((b.val * 8112 + n.val) * 15 + (k.val - 5)) % 15 = k.val - 5; omega
      rw [e, score_at]
      have hk5 : k = ⟨5 + (⟨k.val - 5, by omega⟩ : Fin 15).val, by show 5 + (k.val - 5) < 20; omega⟩ :=
        Fin.ext (by show k.val = 5 + (k.val - 5); omega)
      conv_rhs => rw [hk5, cell_class]

end Cert.ReferenceIdeal.Hand

end
-- ==== Proof.lean ====
/-
  The detection head's decode, kernel against reference, over the extended reals.

  Both programs take x : [128, 60, 52, 52] (image, 3 anchors × 20 channels, 52 × 52 grid cells) to [128, 8112, 20]: one
  row per (anchor, cell), the cell's 20 channels decoded — box centre logistic · 8, box extent · 8, confidence logistic,
  15 class scores a softmax (`Decode.result`, Proof/Spec.lean).

  The kernel works on the argument transposed to (row, column, channel, image), four grid rows per grid point; it moves
  the channel axis in front and decodes each anchor's 20 planes with one tree of operations, the softmax's maximum and
  sum taken across planes; the blocks tile the output, which is reshaped and transposed to the result's layout
  (Proof/Planes.lean … Proof/Whole.lean).  The reference splits the channel axis, moves it last and decodes slice by
  slice, the logistic written out as 1 / (1 + exp (−z)) and the maximum joined once more with −∞
  (Proof/RefCell.lean … Proof/RefResult.lean).  Index by index both are the same function of the argument: the same
  cell's 20 values under the same operations, so no law of arithmetic beyond "1 is 1" and "a maximum started from −∞ is
  at least −∞" is used, and the precondition (finite inputs) is never opened.

  The three frames are the generated ones (the reference's is its run with the result dropped); the idealization
  rewrote nothing, so `preserves` is trivial.
-/
import proofs.«163579_g11012296147525_week1_w3_721_14_alg».proof.Defs
import proofs.«163579_g11012296147525_week1_w3_721_14_alg».proof.Proof.Gen.Kernel
import proofs.«163579_g11012296147525_week1_w3_721_14_alg».proof.Proof.Gen.Kernel.Frame
import proofs.«163579_g11012296147525_week1_w3_721_14_alg».proof.Proof.Gen.KernelIdeal
import proofs.«163579_g11012296147525_week1_w3_721_14_alg».proof.Proof.Gen.KernelIdeal.Frame
import proofs.«163579_g11012296147525_week1_w3_721_14_alg».proof.Proof.Gen.ReferenceIdeal
import proofs.«163579_g11012296147525_week1_w3_721_14_alg».proof.Proof.Gen.Pre_finite_inputs
import proofs.«163579_g11012296147525_week1_w3_721_14_alg».proof.Proof.Whole
import proofs.«163579_g11012296147525_week1_w3_721_14_alg».proof.Proof.RefResult
import Idealize.ShloMosaic.Adequacy
import Idealize.ShloMosaic.Init

noncomputable section

namespace Cert.Proof

open Idealize.ShloMosaic Idealize.ShloMosaic.TcCoe Idealize.SL.Sem

/-- The word-level kernel runs and leaves its argument alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with what it says of the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the argument both idealized programs end with `Decode.result` of it. -/
theorem algebraic : Cert.algebraic_KernelIdeal_ReferenceIdeal := by
  intro m ρ m' ρ' _ hagree
  refine ⟨fun c => Cert.Decode.result
      (m ((c.tc : Thread Cert.KernelIdeal.nD Cert.KernelIdeal.τ).loc Cert.KernelIdeal.main_arg0) : Cert.KernelIdeal.S128x60x52x52.Idx → EReal),
    Cert.KernelIdeal.Whole.run m ρ, ?_⟩
  refine (θ_run Cert.ReferenceIdeal.defs _ _).mono (fun _ h c => ⟨?_, (h c).2⟩)
    (Cert.ReferenceIdeal.ValueP.run (F := Ideal) m' ρ')
  refine ((h c).1.trans (Cert.ReferenceIdeal.ReadP.val_main_v52_eq m' c)).trans ?_
  rw [Cert.ReferenceIdeal.Hand.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
